-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x64 : Shape := ⟨2, ![800000, 64]⟩
abbrev S2x800000 : Shape := ⟨2, ![2, 800000]⟩
abbrev S320x128 : Shape := ⟨2, ![320, 128]⟩
abbrev S128 : Shape := ⟨1, ![128]⟩
abbrev S128x64 : Shape := ⟨2, ![128, 64]⟩
abbrev S64 : Shape := ⟨1, ![64]⟩
abbrev S192x128 : Shape := ⟨2, ![192, 128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S320x128 : S_.BroadcastsInDim S320x128 (![] : Fin 0 → Fin S320x128.rank)
  reducesTo_S320x128_S_d0_1 : S320x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S192x128 : S_.BroadcastsInDim S192x128 (![] : Fin 0 → Fin S192x128.rank)
  reducesTo_S192x128_S_d0_1 : S192x128.ReducesTo [0, 1] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x64 .f32) (main_arg6 : FVec F S64 .f32) (main_arg7 : FVec F S192x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S192x128 .f32 := Host.absf main_arg7
  let main_cst_10 : FVec F S_ .f32 := constant S_ .f32 0x7F800000#32
  let main_v30 : FVec F S192x128 .f32 := broadcastInDim S192x128 ![] bcast_S_S192x128 main_cst_10
  let main_v31 : IVec S192x128 1 := cmpf .olt main_v29 main_v30
  let main_c_11 : IVec S_ 1 := constantI S_ 1 1#1
  let main_v32 : IVec S_ 1 := (fun x v => Host.reduce IntOp.andi x v reducesTo_S192x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : FVec F S800000x64 .f32) (main_arg2 : IVec S2x800000 32) (main_arg3 : FVec F S320x128 .f32) (main_arg4 : FVec F S128 .f32) (main_arg5 : FVec F S128x64 .f32) (main_arg6 : FVec F S64 .f32) (main_arg7 : FVec F S192x128 .f32) (main_arg8 : FVec F S128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S320x128 .f32 := Host.absf main_arg3
  let main_cst_2 : FVec F S_ .f32 := constant S_ .f32 0x7F800000#32
  let main_v10 : FVec F S320x128 .f32 := broadcastInDim S320x128 ![] bcast_S_S320x128 main_cst_2
  let main_v11 : IVec S320x128 1 := cmpf .olt main_v9 main_v10
  let main_c_3 : IVec S_ 1 := constantI S_ 1 1#1
  let main_v12 : IVec S_ 1 := (fun x v => Host.reduce IntOp.andi x v reducesTo_S320x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S800000x64 : Shape := ⟨2, ![800000, 64]⟩
abbrev S2x800000 : Shape := ⟨2, ![2, 800000]⟩
abbrev S320x128 : Shape := ⟨2, ![320, 128]⟩
abbrev S128 : Shape := ⟨1, ![128]⟩
abbrev S128x64 : Shape := ⟨2, ![128, 64]⟩
abbrev S64 : Shape := ⟨1, ![64]⟩
abbrev S192x128 : Shape := ⟨2, ![192, 128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S64x128 : Shape := ⟨2, ![64, 128]⟩
abbrev S1x128 : Shape := ⟨2, ![1, 128]⟩
abbrev S1x64 : Shape := ⟨2, ![1, 64]⟩
abbrev S8000x128 : Shape := ⟨2, ![8000, 128]⟩
abbrev S8000x64 : Shape := ⟨2, ![8000, 64]⟩
abbrev S50000x64 : Shape := ⟨2, ![50000, 64]⟩
abbrev S5000x128 : Shape := ⟨2, ![5000, 128]⟩
abbrev S5000x64 : Shape := ⟨2, ![5000, 64]⟩

abbrev nBuf : Space → Nat
  | .hbm => 51
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S800000x64, .f32⟩
  | .hbm, ⟨2, _⟩ => ⟨S2x800000, .i32⟩
  | .hbm, ⟨3, _⟩ => ⟨S320x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S192x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S50000x128, .bf16⟩
  | .hbm, ⟨16, _⟩ => ⟨S800000x64, .bf16⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .bf16⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .bf16⟩
  | .hbm, ⟨35, _⟩ => ⟨S128x128, .f32⟩
  | .hbm, ⟨36, _⟩ => ⟨S128x128, .f32⟩
  | .hbm, ⟨37, _⟩ => ⟨S64x128, .f32⟩
  | .hbm, ⟨38, _⟩ => ⟨S1x128, .f32⟩
  | .hbm, ⟨39, _⟩ => ⟨S1x64, .f32⟩
  | .hbm, ⟨40, _⟩ => ⟨S800000x64, .f32⟩
  | .hbm, ⟨41, _⟩ => ⟨S_, .f32⟩
  | .hbm, ⟨42, _⟩ => ⟨S50000x64, .f32⟩
  | .hbm, ⟨43, _⟩ => ⟨S800000x1, .i32⟩
  | .hbm, ⟨44, _⟩ => ⟨S50000x64, .f32⟩
  | .hbm, ⟨45, _⟩ => ⟨S50000x64, .bf16⟩
  | .hbm, ⟨46, _⟩ => ⟨S128x128, .f32⟩
  | .hbm, ⟨47, _⟩ => ⟨S64x128, .f32⟩
  | .hbm, ⟨48, _⟩ => ⟨S1x128, .f32⟩
  | .hbm, ⟨49, _⟩ => ⟨S1x128, .f32⟩
  | .hbm, ⟨50, _⟩ => ⟨S50000x128, .f32⟩
  | .local _ .vmem, ⟨0, _⟩ => ⟨S8000x128, .bf16⟩
  | .local _ .vmem, ⟨1, _⟩ => ⟨S8000x128, .bf16⟩
  | .local _ .vmem, ⟨2, _⟩ => ⟨S8000x128, .bf16⟩
  | .local _ .vmem, ⟨3, _⟩ => ⟨S8000x128, .bf16⟩
  | .local _ .vmem, ⟨4, _⟩ => ⟨S8000x64, .bf16⟩
  | .local _ .vmem, ⟨5, _⟩ => ⟨S8000x64, .bf16⟩
  | .local _ .vmem, ⟨6, _⟩ => ⟨S128x128, .f32⟩
  | .local _ .vmem, ⟨7, _⟩ => ⟨S128x128, .f32⟩
  | .local _ .vmem, ⟨8, _⟩ => ⟨S64x128, .f32⟩
  | .local _ .vmem, ⟨9, _⟩ => ⟨S1x128, .f32⟩
  | .local _ .vmem, ⟨10, _⟩ => ⟨S128x64, .f32⟩
  | .local _ .vmem, ⟨11, _⟩ => ⟨S1x64, .f32⟩
  | .local _ .vmem, ⟨12, _⟩ => ⟨S8000x64, .f32⟩
  | .local _ .vmem, ⟨13, _⟩ => ⟨S8000x64, .f32⟩
  | .local _ .vmem, ⟨14, _⟩ => ⟨S5000x128, .bf16⟩
  | .local _ .vmem, ⟨15, _⟩ => ⟨S5000x128, .bf16⟩
  | .local _ .vmem, ⟨16, _⟩ => ⟨S5000x64, .bf16⟩
  | .local _ .vmem, ⟨17, _⟩ => ⟨S5000x64, .bf16⟩
  | .local _ .vmem, ⟨18, _⟩ => ⟨S128x128, .f32⟩
  | .local _ .vmem, ⟨19, _⟩ => ⟨S64x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S320x128_S128x128_0_0 : S320x128.Slices ![0, 0] S128x128
  slices_S320x128_S128x128_128_0 : S320x128.Slices ![128, 0] S128x128
  slices_S320x128_S64x128_256_0 : S320x128.Slices ![256, 0] S64x128
  shapeCasts_S128_S1x128 : S128.ShapeCasts S1x128
  shapeCasts_S64_S1x64 : S64.ShapeCasts S1x64
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  bcast_S_S50000x64 : S_.BroadcastsInDim S50000x64 (![] : Fin 0 → Fin S50000x64.rank)
  slices_S192x128_S128x128_0_0 : S192x128.Slices ![0, 0] S128x128
  slices_S192x128_S64x128_128_0 : S192x128.Slices ![128, 0] S64x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  dot_S8000x128_S128x128_S8000x128_1_0_0_1_n_n_wf : DotDims.WF S8000x128 S128x128 S8000x128 [1] [0] [0] [1] [] []
  dot_S8000x64_S64x128_S8000x128_1_0_0_1_n_n_wf : DotDims.WF S8000x64 S64x128 S8000x128 [1] [0] [0] [1] [] []
  dot_S8000x128_S128x64_S8000x64_1_0_0_1_n_n_wf : DotDims.WF S8000x128 S128x64 S8000x64 [1] [0] [0] [1] [] []
  scatter_S50000x64_S800000x1_S800000x64_1_0_0_1_wf : ScatterDims.WF S50000x64 S800000x1 S800000x64 [1] [0] [0] 1
  dot_S5000x128_S128x128_S5000x128_1_0_0_1_n_n_wf : DotDims.WF S5000x128 S128x128 S5000x128 [1] [0] [0] [1] [] []
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .bf16 = 32 ∨ (Rect.block (s := S800000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .bf16 = 32 ∨ (Rect.block (s := S800000x128) S8000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S800000x64.size a
  hwx0_2 : ∀ i : grid0.Coords, EltTy.bits .bf16 = 32 ∨ (Rect.block (s := S800000x64) S8000x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x64.size a ≤ S800000x64.size a
  hwx0_9 : ∀ i : grid0.Coords, EltTy.bits .f32 = 32 ∨ (Rect.block (s := S800000x64) S8000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .bf16 = 32 ∨ (Rect.block (s := S50000x128) S5000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .bf16 = 32 ∨ (Rect.block (s := S50000x64) S5000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_v12) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S8000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S8000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v4) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v34) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000x64 : Shape := ⟨2, ![800000, 64]⟩
abbrev S2x800000 : Shape := ⟨2, ![2, 800000]⟩
abbrev S320x128 : Shape := ⟨2, ![320, 128]⟩
abbrev S128 : Shape := ⟨1, ![128]⟩
abbrev S128x64 : Shape := ⟨2, ![128, 64]⟩
abbrev S64 : Shape := ⟨1, ![64]⟩
abbrev S192x128 : Shape := ⟨2, ![192, 128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x320 : Shape := ⟨2, ![800000, 320]⟩
abbrev S1x128 : Shape := ⟨2, ![1, 128]⟩
abbrev S1x64 : Shape := ⟨2, ![1, 64]⟩
abbrev S50000x64 : Shape := ⟨2, ![50000, 64]⟩
abbrev S50000x192 : Shape := ⟨2, ![50000, 192]⟩

abbrev nBuf : Space → Nat
  | .hbm => 82
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x64, .f32⟩
  | .hbm, ⟨2, _⟩ => ⟨S2x800000, .i32⟩
  | .hbm, ⟨3, _⟩ => ⟨S320x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S192x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S800000x320, .f32⟩
  | .hbm, ⟨34, _⟩ => ⟨S800000x128, .f32⟩
  | .hbm, ⟨35, _⟩ => ⟨S1x128, .f32⟩
  | .hbm, ⟨36, _⟩ => ⟨S800000x128, .f32⟩
  | .hbm, ⟨37, _⟩ => ⟨S800000x128, .f32⟩
  | .hbm, ⟨38, _⟩ => ⟨S800000x128, .f32⟩
  | .hbm, ⟨39, _⟩ => ⟨S800000x128, .f32⟩
  | .hbm, ⟨40, _⟩ => ⟨S_, .f32⟩
  | .hbm, ⟨41, _⟩ => ⟨S800000x128, .f32⟩
  | .hbm, ⟨42, _⟩ => ⟨S800000x128, .f32⟩
  | .hbm, ⟨43, _⟩ => ⟨S_, .f32⟩
  | .hbm, ⟨44, _⟩ => ⟨S800000x128, .f32⟩
  | .hbm, ⟨45, _⟩ => ⟨S800000x128, .f32⟩
  | .hbm, ⟨46, _⟩ => ⟨S800000x128, .f32⟩
  | .hbm, ⟨47, _⟩ => ⟨S800000x64, .f32⟩
  | .hbm, ⟨48, _⟩ => ⟨S1x64, .f32⟩
  | .hbm, ⟨49, _⟩ => ⟨S800000x64, .f32⟩
  | .hbm, ⟨50, _⟩ => ⟨S800000x64, .f32⟩
  | .hbm, ⟨51, _⟩ => ⟨S800000x64, .f32⟩
  | .hbm, ⟨52, _⟩ => ⟨S800000x64, .f32⟩
  | .hbm, ⟨53, _⟩ => ⟨S_, .f32⟩
  | .hbm, ⟨54, _⟩ => ⟨S800000x64, .f32⟩
  | .hbm, ⟨55, _⟩ => ⟨S800000x64, .f32⟩
  | .hbm, ⟨56, _⟩ => ⟨S_, .f32⟩
  | .hbm, ⟨57, _⟩ => ⟨S800000x64, .f32⟩
  | .hbm, ⟨58, _⟩ => ⟨S800000x64, .f32⟩
  | .hbm, ⟨59, _⟩ => ⟨S800000x64, .f32⟩
  | .hbm, ⟨60, _⟩ => ⟨S_, .f32⟩
  | .hbm, ⟨61, _⟩ => ⟨S50000x64, .f32⟩
  | .hbm, ⟨62, _⟩ => ⟨S800000x1, .i32⟩
  | .hbm, ⟨63, _⟩ => ⟨S50000x64, .f32⟩
  | .hbm, ⟨64, _⟩ => ⟨S50000x192, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v28 : Ref sig .tc := ⟨.hbm, 59, rfl⟩
abbrev main_cst : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_call2_v0 : Ref sig .tc := ⟨.hbm, 69, rfl⟩
abbrev main_call2_v1 : Ref sig .tc := ⟨.hbm, 70, rfl⟩
abbrev main_call2_cst : Ref sig .tc := ⟨.hbm, 71, rfl⟩
abbrev main_call2_v2 : Ref sig .tc := ⟨.hbm, 72, rfl⟩
abbrev main_call2_v3 : Ref sig .tc := ⟨.hbm, 73, rfl⟩
abbrev main_call2_cst_0 : Ref sig .tc := ⟨.hbm, 74, rfl⟩
abbrev main_call2_v4 : Ref sig .tc := ⟨.hbm, 75, rfl⟩
abbrev main_call2_v5 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x64_S800000x320_d1 : Shape.Concatenates [S800000x128, S800000x128, S800000x64] S800000x320 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  concatenates_S50000x128_S50000x64_S50000x192_d1 : Shape.Concatenates [S50000x128, S50000x64] S50000x192 1
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  gather_S50000x128_S800000x1_S800000x128_1_0_n_n_0_1_1128_wf : GatherDims.WF S50000x128 S800000x1 S800000x128 [1] [0] [] [0] [] 1 ![1, 128]
  dot_S800000x320_S320x128_S800000x128_1_0_0_1_n_n_wf : DotDims.WF S800000x320 S320x128 S800000x128 [1] [0] [0] [1] [] []
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  dot_S50000x192_S192x128_S50000x128_1_0_0_1_n_n_wf : DotDims.WF S50000x192 S192x128 S50000x128 [1] [0] [0] [1] [] []
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x320_S320x128_S800000x128_1_0_0_1_n_n : DotDims S800000x320 S320x128 S800000x128 where
  lhsContracting := [1]
  rhsContracting := [0]
  lhsNonContracting := [0]
  rhsNonContracting := [1]
  lhsBatch := []
  rhsBatch := []
  wf := dot_S800000x320_S320x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x192_S192x128_S50000x128_1_0_0_1_n_n : DotDims S50000x192 S192x128 S50000x128 where
  lhsContracting := [1]
  rhsContracting := [0]
  lhsNonContracting := [0]
  rhsNonContracting := [1]
  lhsBatch := []
  rhsBatch := []
  wf := dot_S50000x192_S192x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RunNamed.lean ====
/-
  The kernel program's run with its two results named.

  The program is four stretches in a row: host operations (slices, format changes, the two row gathers), the edge
  network's region, host operations (the per-receiver sums, slices, reshapes), the node network's region.  The buffer
  contents at each boundary are a fold from the launch memory; `W4` is the last one.  Every weakly fair execution
  terminates without a fault with every unscoped buffer at `W4`; here the two result buffers are kept in the post —
  the node network's output array and the edge network's output array — beside the eleven arguments, which end as
  launched.
-/
import proofs.«125385_j28217935135269_2_alg».proof.Proof.Gen.KernelIdeal.Frame

set_option maxRecDepth 16384

noncomputable section

namespace Cert.KernelIdeal.Outputs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the two result buffers at the last
    boundary's contents and the arguments as launched. -/
theorem run_named : θ_run defs (onTc (τ := τ) (main (F := F))) ⟨m, fun _ => 0, ρ⟩ (fun r => ∀ c : Dev nD,
      r.2.mem ((c.tc : Thread nD τ).loc main_v34) = W4 m ρ c (Proc.devRef .tc main_v34)
      ∧ r.2.mem ((c.tc : Thread nD τ).loc main_v25) = W4 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       h c _ (mem_uc main_v25 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.Outputs

end
-- ==== Proof.Spec.lean ====
/-
  The two small networks of one message-passing layer, as functions of whole arrays on the extended reals.

  Edge network.  Edge e joins three feature rows — its sender's node row, its receiver's node row, its own edge row
  (128 + 128 + 64 = 320 features) — and sends the joined row through  x ↦ silu (x · W1 + b1)  and then
  x ↦ silu (x · W2 + b2), where silu x = x · 1/(1 + e⁻ˣ).  A product of a JOINED row with W1 is the sum of the products
  of its three parts with the three bands of rows of W1 that face them:
      ∑_{k < 320} [s | r | x]ₖ · W1ₖ  =  ∑_{k < 128} sₖ · W1ₖ + ∑_{k < 128} rₖ · W1_{128+k} + ∑_{k < 64} xₖ · W1_{256+k},
  a regrouping of one finite sum, valid in any commutative monoid and so on the extended reals with no finiteness
  hypothesis.  The functions below are written in the banded form; `sum_bands_320` and `sum_bands_192` are the law.

  Node network.  Node n joins its own row with the 64 sums its incoming edges left it (128 + 64 = 192 features) and sends
  the joined row through  x ↦ silu (x · W1 + b1)  and then  x ↦ x · W2 + b2  (no activation at the end).

  Row j of either result depends only on row j of the row-indexed operands, so the same definition reads a block of rows
  and the whole array: `edgeK` and `nodeK` are stated for any number of rows.
-/
import Idealize.ShloMosaic.PureOps.Ideal
import Idealize.ShloMosaic.Lib.ValueIdx
import Mathlib.Algebra.BigOperators.Fin

noncomputable section

namespace Cert.MessagePassing

open Idealize.ShloMosaic Idealize.ShloMosaic.ValueIdx

/-- A matrix of extended reals with `a` rows and `b` columns. -/
abbrev Mat (a b : ℕ) := (⟨2, ![a, b]⟩ : Shape).Idx → EReal
/-- A vector of extended reals of length `a`. -/
abbrev Vc (a : ℕ) := (⟨1, ![a]⟩ : Shape).Idx → EReal

/-- silu x = x · 1/(1 + e⁻ˣ). -/
def silu (x : EReal) : EReal := x * Ideal.logistic x

/-- The band of `n` rows of `W` that starts at row `o`. -/
def band {R C : ℕ} (o n : ℕ) (h : o + n ≤ R) (W : Mat R C) : Mat n C :=
  fun j => W (ix2 ⟨o + (j 0).val, by have hj : (j 0).val < n := (j 0).isLt; omega⟩ (j 1))

/-- A vector laid out as a matrix of one row. -/
def rowOf {C : ℕ} (b : Vc C) : Mat 1 C := fun j => b (ix1 (j 1))

/-- The edge network on `N` rows: the joined row against W1 as three band products, a bias, silu; then W2, a bias,
    silu. -/
def edgeK {N : ℕ} (gs gr : Mat N 128) (xe : Mat N 64) (wa wb : Mat 128 128) (wc : Mat 64 128) (b1 : Mat 1 128)
    (w2 : Mat 128 64) (b2 : Mat 1 64) : Mat N 64 :=
  fun j => silu ((∑ c : Fin 128,
      silu ((((∑ k : Fin 128, gs (ix2 (j 0) k) * wa (ix2 k c)) + ∑ k : Fin 128, gr (ix2 (j 0) k) * wb (ix2 k c))
          + ∑ k : Fin 64, xe (ix2 (j 0) k) * wc (ix2 k c)) + b1 (ix2 0 c)) * w2 (ix2 c (j 1))) + b2 (ix2 0 (j 1)))

/-- The node network on `N` rows: the joined row against W1 as two band products, a bias, silu; then W2 and a bias. -/
def nodeK {N : ℕ} (xn : Mat N 128) (ag : Mat N 64) (wa : Mat 128 128) (wb : Mat 64 128) (b1 : Mat 1 128)
    (w2 : Mat 128 128) (b2 : Mat 1 128) : Mat N 128 :=
  fun j => (∑ c : Fin 128,
      silu (((∑ k : Fin 128, xn (ix2 (j 0) k) * wa (ix2 k c)) + ∑ k : Fin 64, ag (ix2 (j 0) k) * wb (ix2 k c))
          + b1 (ix2 0 c)) * w2 (ix2 c (j 1))) + b2 (ix2 0 (j 1))

/-- The new edge features of all 800000 edges, from the gathered sender rows `gs`, the gathered receiver rows `gr`, the
    edge rows `xe` and the edge network's weights. -/
def edgeOut (gs gr : Mat 800000 128) (xe : Mat 800000 64) (W1 : Mat 320 128) (b1 : Vc 128) (W2 : Mat 128 64)
    (b2 : Vc 64) : Mat 800000 64 :=
  edgeK gs gr xe (band 0 128 (by omega) W1) (band 128 128 (by omega) W1) (band 256 64 (by omega) W1) (rowOf b1) W2
    (rowOf b2)

/-- The new node features of all 50000 nodes, from the node rows `xn`, the per-node sums `ag` of incoming edge features
    and the node network's weights. -/
def nodeOut (xn : Mat 50000 128) (ag : Mat 50000 64) (W1 : Mat 192 128) (b1 : Vc 128) (W2 : Mat 128 128)
    (b2 : Vc 128) : Mat 50000 128 :=
  nodeK xn ag (band 0 128 (by omega) W1) (band 128 64 (by omega) W1) (rowOf b1) W2 (rowOf b2)

/-- A sum over 320 = 128 + 128 + 64 terms, band by band. -/
theorem sum_bands_320 {M : Type*} [AddCommMonoid M] (f : Fin 320 → M) :
    ∑ k, f k = ((∑ k : Fin 128, f ⟨k.val, by omega⟩) + ∑ k : Fin 128, f ⟨128 + k.val, by omega⟩)
      + ∑ k : Fin 64, f ⟨256 + k.val, by omega⟩ := by
  have h := Fin.sum_univ_add (M := M) (a := 256) (b := 64) f
  have h' := Fin.sum_univ_add (M := M) (a := 128) (b := 128) (fun i => f (Fin.castAdd 64 i))
  rw [h, h']
  rfl

/-- A sum over 192 = 128 + 64 terms, band by band. -/
theorem sum_bands_192 {M : Type*} [AddCommMonoid M] (f : Fin 192 → M) :
    ∑ k, f k = (∑ k : Fin 128, f ⟨k.val, by omega⟩) + ∑ k : Fin 64, f ⟨128 + k.val, by omega⟩ := by
  have h := Fin.sum_univ_add (M := M) (a := 128) (b := 64) f
  rw [h]
  rfl

end Cert.MessagePassing

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.Payloads.lean ====
/-
  The two kernel bodies' values read at an entry, at the ideal values.

  Each body is one pure term: products of a block of rows with weight matrices into a zero accumulator, added together, a
  one-row bias broadcast down the rows, x ↦ x · 1/(1 + e⁻ˣ), a second product and a second bias (and, for the edge
  network, a second x ↦ x · 1/(1 + e⁻ˣ)).  At the ideal values a format change is the identity and a product into the
  zero accumulator read at (p, q) is the plain sum over the contracted coordinate, so the body read at (p, q) is the
  network's closed form at (p, q).
-/
import proofs.«125385_j28217935135269_2_alg».proof.Proof.Gen.KernelIdeal.Skeleton
import proofs.«125385_j28217935135269_2_alg».proof.Proof.Spec
import proofs.«125385_j28217935135269_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payloads

open Cert.KernelIdeal Cert.KernelIdeal.Gen Cert.MessagePassing Idealize.ShloMosaic Idealize.ShloMosaic.ValueIdx

/-- The logistic of an array read at an index is the logistic of the entry. -/
theorem logistic_apply {s : Shape} {φ : FTy} (v : FVec Ideal s φ) (i : s.Idx) :
    logistic v i = Ideal.logistic (v i) := rfl

/-- The 8000×128 by 128×128 product's dimension numbers are the plain ones. -/
theorem dot_e1 : dot_S8000x128_S128x128_S8000x128_1_0_0_1_n_n = DotDims.plain 8000 128 128 := rfl
/-- The 8000×64 by 64×128 product's dimension numbers are the plain ones. -/
theorem dot_e2 : dot_S8000x64_S64x128_S8000x128_1_0_0_1_n_n = DotDims.plain 8000 64 128 := rfl
/-- The 8000×128 by 128×64 product's dimension numbers are the plain ones. -/
theorem dot_e3 : dot_S8000x128_S128x64_S8000x64_1_0_0_1_n_n = DotDims.plain 8000 128 64 := rfl
/-- The 5000×128 by 128×128 product's dimension numbers are the plain ones. -/
theorem dot_n1 : dot_S5000x128_S128x128_S5000x128_1_0_0_1_n_n = DotDims.plain 5000 128 128 := rfl
/-- The 5000×64 by 64×128 product's dimension numbers are the plain ones. -/
theorem dot_n2 : dot_S5000x64_S64x128_S5000x128_1_0_0_1_n_n = DotDims.plain 5000 64 128 := rfl

/-- The edge body read at an entry is the edge network's closed form on the block's 8000 rows. -/
theorem edge_payload (x0 x1 : Vec Ideal S8000x128 .bf16) (x2 : Vec Ideal S8000x64 .bf16) (x3 x4 : Vec Ideal S128x128 .f32)
    (x5 : Vec Ideal S64x128 .f32) (x6 : Vec Ideal S1x128 .f32) (x7 : Vec Ideal S128x64 .f32) (x8 : Vec Ideal S1x64 .f32) :
    (k0_pay1 (F := Ideal) x0 x1 x2 x3 x4 x5 x6 x7 x8 : S8000x64.Idx → EReal)
      = edgeK (N := 8000) x0 x1 x2 x3 x4 x5 x6 x7 x8 := by
  funext j
  obtain ⟨p, q, rfl⟩ : ∃ (p : Fin 8000) (q : Fin 64), j = ix2 p q := ⟨j 0, j 1, eq_ix2 j⟩
  unfold k0_pay1 edgeK silu
  simp only [shapeCast_self, dot_e1, dot_e2, dot_e3, mulf_apply, addf_apply, truncf_apply, logistic_apply,
    Cert.PlainDot.matmul_zero_plain_apply, broadcastTo_1b_ab_apply]

/-- The node body read at an entry is the node network's closed form on the block's 5000 rows. -/
theorem node_payload (x0 : Vec Ideal S5000x128 .bf16) (x1 : Vec Ideal S5000x64 .bf16) (x2 : Vec Ideal S128x128 .f32)
    (x3 : Vec Ideal S64x128 .f32) (x4 : Vec Ideal S1x128 .f32) (x5 : Vec Ideal S128x128 .f32) (x6 : Vec Ideal S1x128 .f32) :
    (k1_pay1 (F := Ideal) x0 x1 x2 x3 x4 x5 x6 : S5000x128.Idx → EReal)
      = nodeK (N := 5000) x0 x1 x2 x3 x4 x5 x6 := by
  funext j
  obtain ⟨p, q, rfl⟩ : ∃ (p : Fin 5000) (q : Fin 128), j = ix2 p q := ⟨j 0, j 1, eq_ix2 j⟩
  unfold k1_pay1 nodeK silu
  simp only [shapeCast_self, dot_n1, dot_n2, mulf_apply, addf_apply, truncf_apply, logistic_apply,
    Cert.PlainDot.matmul_zero_plain_apply, broadcastTo_1b_ab_apply]

end Cert.KernelIdeal.Payloads

end
-- ==== Proof.EdgeBlocks.lean ====
/-
  The edge network's region, from blocks to the whole array.

  The region runs the body at 100 grid points; point t reads rows t·8000 … t·8000 + 7999 of the three row operands
  (gathered sender rows, gathered receiver rows, edge rows), the six weight and bias operands whole, and writes back
  rows t·8000 … of the output.  Row j of the network's result depends only on row j of the row operands, so what a
  point writes back is a block of ONE function of the whole arrays; the 100 blocks tile the 800000 rows, so after the
  region the output array is that function.
-/
import proofs.«125385_j28217935135269_2_alg».proof.Proof.Gen.KernelIdeal.Frame
import proofs.«125385_j28217935135269_2_alg».proof.Proof.Spec
import proofs.«125385_j28217935135269_2_alg».proof.Proof.Payloads
import Idealize.ShloMosaic.Lib.Pipeline.Value
import Idealize.ShloMosaic.Lib.ValueIdx

set_option maxRecDepth 16384

noncomputable section

namespace Cert.KernelIdeal.EdgeBlocks

open Cert.KernelIdeal Cert.KernelIdeal.Gen Cert.KernelIdeal.Payloads Cert.MessagePassing
open Idealize.ShloMosaic Idealize.ShloMosaic.TcCoe Idealize.ShloMosaic.ValueIdx Idealize.SL.Sem
open Idealize.ShloMosaic.Pipeline (Dat Cfg Window)

/- The buffer contents the region finds when it is entered: the parameter everything here is stated at. -/
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0) at point t, the weights and
    biases at block (0, 0) at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- What point `t` writes back is block `t` of the network's closed form on the whole arrays the region finds: the
    block's row y is row t·8000 + y of every row-blocked operand, and the weights and biases are read whole. -/
theorem flushed_eq (c : Dev nD) (t : Fin cfg0.N) :
    (dat0 (F := Ideal) V c).flushed 9 t = ((cfg0.win 9).blk t).view.read (Elt Ideal)
      (edgeK (N := 800000) (V c main_v12) (V c main_v19) (V c main_v5) (V c main_v20) (V c main_v21) (V c main_v22) (V c main_v23) (V c main_arg5) (V c main_v24)) := by
  show (cfg0.win 9).cut (grid0.coords t) ((dat0 V c).after 9 t) = _
  rw [after0_9]
  unfold out0_9
  rw [View.canon_unit_zero hz]
  simp only [View.ld_unit_zero (S := S8000x128) hz, View.ld_unit_zero (S := S8000x64) hz, View.ld_unit_zero (S := S128x128) hz, View.ld_unit_zero (S := S64x128) hz, View.ld_unit_zero (S := S1x128) hz, View.ld_unit_zero (S := S128x64) hz, View.ld_unit_zero (S := S1x64) hz]
  rw [edge_payload]
  funext y
  obtain ⟨e00, e01, e10, e11, e20, e21, e90, e91, e30, e31, e40, e41, e50, e51, e60, e61, e70, e71, e80, e81⟩ := idx_facts t
  show edgeK (N := 8000) (iblk0 V c 0 t) (iblk0 V c 1 t) (iblk0 V c 2 t) (iblk0 V c 3 t) (iblk0 V c 4 t) (iblk0 V c 5 t) (iblk0 V c 6 t) (iblk0 V c 7 t) (iblk0 V c 8 t) y
    = edgeK (N := 800000) (V c main_v12) (V c main_v19) (V c main_v5) (V c main_v20) (V c main_v21) (V c main_v22) (V c main_v23) (V c main_arg5) (V c main_v24) (((cfg0.win 9).blk t).view.emb y)
  have L0 : ∀ k : Fin 128, iblk0 V c 0 t (ix2 (y 0) k) = V c main_v12 (ix2 ((((cfg0.win 9).blk t).view.emb y) 0) k) := fun k => by
    show V c main_v12 (((cfg0.win 0).blk t).view.emb (ix2 (y 0) k)) = _
    refine congrArg _ (funext fun a => Fin.ext ?_)
    match a with
    | ⟨0, _⟩ => show win0_0.index t (0 : Fin 2) * 8000 + 1 * (y 0).val = win0_9.index t (0 : Fin 2) * 8000 + 1 * (y 0).val; omega
    | ⟨1, _⟩ => show win0_0.index t (1 : Fin 2) * 128 + 1 * k.val = k.val; omega
  have L1 : ∀ k : Fin 128, iblk0 V c 1 t (ix2 (y 0) k) = V c main_v19 (ix2 ((((cfg0.win 9).blk t).view.emb y) 0) k) := fun k => by
    show V c main_v19 (((cfg0.win 1).blk t).view.emb (ix2 (y 0) k)) = _
    refine congrArg _ (funext fun a => Fin.ext ?_)
    match a with
    | ⟨0, _⟩ => show win0_1.index t (0 : Fin 2) * 8000 + 1 * (y 0).val = win0_9.index t (0 : Fin 2) * 8000 + 1 * (y 0).val; omega
    | ⟨1, _⟩ => show win0_1.index t (1 : Fin 2) * 128 + 1 * k.val = k.val; omega
  have L2 : ∀ k : Fin 64, iblk0 V c 2 t (ix2 (y 0) k) = V c main_v5 (ix2 ((((cfg0.win 9).blk t).view.emb y) 0) k) := fun k => by
    show V c main_v5 (((cfg0.win 2).blk t).view.emb (ix2 (y 0) k)) = _
    refine congrArg _ (funext fun a => Fin.ext ?_)
    match a with
    | ⟨0, _⟩ => show win0_2.index t (0 : Fin 2) * 8000 + 1 * (y 0).val = win0_9.index t (0 : Fin 2) * 8000 + 1 * (y 0).val; omega
    | ⟨1, _⟩ => show win0_2.index t (1 : Fin 2) * 64 + 1 * k.val = k.val; omega
  have L3 : ∀ z, iblk0 V c 3 t z = V c main_v20 z := fun z => by
    show V c main_v20 (((cfg0.win 3).blk t).view.emb z) = _
    refine congrArg _ (funext fun a => Fin.ext ?_)
    match a with
    | ⟨0, _⟩ => show win0_3.index t (0 : Fin 2) * 128 + 1 * (z 0).val = (z 0).val; omega
    | ⟨1, _⟩ => show win0_3.index t (1 : Fin 2) * 128 + 1 * (z 1).val = (z 1).val; omega
  have L4 : ∀ z, iblk0 V c 4 t z = V c main_v21 z := fun z => by
    show V c main_v21 (((cfg0.win 4).blk t).view.emb z) = _
    refine congrArg _ (funext fun a => Fin.ext ?_)
    match a with
    | ⟨0, _⟩ => show win0_4.index t (0 : Fin 2) * 128 + 1 * (z 0).val = (z 0).val; omega
    | ⟨1, _⟩ => show win0_4.index t (1 : Fin 2) * 128 + 1 * (z 1).val = (z 1).val; omega
  have L5 : ∀ z, iblk0 V c 5 t z = V c main_v22 z := fun z => by
    show V c main_v22 (((cfg0.win 5).blk t).view.emb z) = _
    refine congrArg _ (funext fun a => Fin.ext ?_)
    match a with
    | ⟨0, _⟩ => show win0_5.index t (0 : Fin 2) * 64 + 1 * (z 0).val = (z 0).val; omega
    | ⟨1, _⟩ => show win0_5.index t (1 : Fin 2) * 128 + 1 * (z 1).val = (z 1).val; omega
  have L6 : ∀ z, iblk0 V c 6 t z = V c main_v23 z := fun z => by
    show V c main_v23 (((cfg0.win 6).blk t).view.emb z) = _
    refine congrArg _ (funext fun a => Fin.ext ?_)
    match a with
    | ⟨0, _⟩ => show win0_6.index t (0 : Fin 2) * 1 + 1 * (z 0).val = (z 0).val; omega
    | ⟨1, _⟩ => show win0_6.index t (1 : Fin 2) * 128 + 1 * (z 1).val = (z 1).val; omega
  have L7 : ∀ z, iblk0 V c 7 t z = V c main_arg5 z := fun z => by
    show V c main_arg5 (((cfg0.win 7).blk t).view.emb z) = _
    refine congrArg _ (funext fun a => Fin.ext ?_)
    match a with
    | ⟨0, _⟩ => show win0_7.index t (0 : Fin 2) * 128 + 1 * (z 0).val = (z 0).val; omega
    | ⟨1, _⟩ => show win0_7.index t (1 : Fin 2) * 64 + 1 * (z 1).val = (z 1).val; omega
  have L8 : ∀ z, iblk0 V c 8 t z = V c main_v24 z := fun z => by
    show V c main_v24 (((cfg0.win 8).blk t).view.emb z) = _
    refine congrArg _ (funext fun a => Fin.ext ?_)
    match a with
    | ⟨0, _⟩ => show win0_8.index t (0 : Fin 2) * 1 + 1 * (z 0).val = (z 0).val; omega
    | ⟨1, _⟩ => show win0_8.index t (1 : Fin 2) * 64 + 1 * (z 1).val = (z 1).val; omega
  have hE1 : (((cfg0.win 9).blk t).view.emb y) 1 = y 1 := Fin.ext (by
    show win0_9.index t (1 : Fin 2) * 64 + 1 * (y 1).val = (y 1).val; omega)
  simp only [edgeK, L0, L1, L2, L3, L4, L5, L6, L7, L8, hE1]

/-- An index of the array is in point `t`'s block iff each coordinate is in the block's range on its axis. -/
theorem mem_blk (t : Fin cfg0.N) (i : S800000x64.Idx) :
    i ∈ ((cfg0.win 9).blk t).view.set ↔ ∀ a : Fin 2, win0_9.index t a * S8000x64.size a ≤ (i a).val ∧ (i a).val < win0_9.index t a * S8000x64.size a + S8000x64.size a := by
  show i ∈ ((View.whole main_v25).slice (win0_9.rect t)).set ↔ _
  rw [View.set_slice_whole, Rect.mem_set_unit]
  exact Iff.rfl

/-- Every row of the array lies in the block of the point that its number divided by 8000 names. -/
theorem cover (i : S800000x64.Idx) :
    ∃ t : Fin cfg0.N, (cfg0.win 9).flush t = true ∧ i ∈ ((cfg0.win 9).blk t).view.set := by
  have hi0 : (i 0).val < 800000 := (i 0).isLt
  have hi1 : (i 1).val < 64 := (i 1).isLt
  have hN : (i 0).val / 8000 < cfg0.N := by show (i 0).val / 8000 < 100; omega
  obtain ⟨-, -, -, -, -, -, eo0, eo1, -⟩ := idx_facts ⟨(i 0).val / 8000, hN⟩
  refine ⟨⟨(i 0).val / 8000, hN⟩, flush0_9 _, ?_⟩
  rw [mem_blk]
  intro a
  match a with
  | ⟨0, _⟩ =>
    show win0_9.index ⟨(i 0).val / 8000, hN⟩ (0 : Fin 2) * 8000 ≤ (i 0).val ∧ (i 0).val < win0_9.index ⟨(i 0).val / 8000, hN⟩ (0 : Fin 2) * 8000 + 8000
    rw [eo0]; show (i 0).val / 8000 * 8000 ≤ (i 0).val ∧ (i 0).val < (i 0).val / 8000 * 8000 + 8000; omega
  | ⟨1, _⟩ =>
    show win0_9.index ⟨(i 0).val / 8000, hN⟩ (1 : Fin 2) * 64 ≤ (i 1).val ∧ (i 1).val < win0_9.index ⟨(i 0).val / 8000, hN⟩ (1 : Fin 2) * 64 + 64
    rw [eo1]; omega

/-- The region's output array after the region: the network's closed form on the whole arrays the region finds. -/
theorem out_array (c : Dev nD) :
    (dat0 (F := Ideal) V c).arrAt 9 cfg0.N = edgeK (N := 800000) (V c main_v12) (V c main_v19) (V c main_v5) (V c main_v20) (V c main_v21) (V c main_v22) (V c main_v23) (V c main_arg5) (V c main_v24) :=
  (dat0 (F := Ideal) V c).arrAt_eq_of_cover 9 _ (fun t _ => flushed_eq V c t) cover

end Cert.KernelIdeal.EdgeBlocks

end
-- ==== Proof.NodeBlocks.lean ====
/-
  The node network's region, from blocks to the whole array.

  The region runs the body at 10 grid points; point t reads rows t·5000 … t·5000 + 4999 of the two row operands (node
  rows, per-node sums of incoming edge features), the five weight and bias operands whole, and writes back rows
  t·5000 … of the output.  Row j of the network's result depends only on row j of the row operands, so what a point
  writes back is a block of ONE function of the whole arrays; the 10 blocks tile the 50000 rows, so after the region
  the output array is that function.
-/
import proofs.«125385_j28217935135269_2_alg».proof.Proof.Gen.KernelIdeal.Frame
import proofs.«125385_j28217935135269_2_alg».proof.Proof.Spec
import proofs.«125385_j28217935135269_2_alg».proof.Proof.Payloads
import Idealize.ShloMosaic.Lib.Pipeline.Value
import Idealize.ShloMosaic.Lib.ValueIdx

set_option maxRecDepth 16384

noncomputable section

namespace Cert.KernelIdeal.NodeBlocks

open Cert.KernelIdeal Cert.KernelIdeal.Gen Cert.KernelIdeal.Payloads Cert.MessagePassing
open Idealize.ShloMosaic Idealize.ShloMosaic.TcCoe Idealize.ShloMosaic.ValueIdx Idealize.SL.Sem
open Idealize.ShloMosaic.Pipeline (Dat Cfg Window)

/- The buffer contents the region finds when it is entered: the parameter everything here is stated at. -/
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0) at point t, the weights and
    biases at block (0, 0) at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_7.index t (0 : Fin 2) = t.val ∧ win1_7.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- What point `t` writes back is block `t` of the network's closed form on the whole arrays the region finds: the
    block's row y is row t·5000 + y of every row-blocked operand, and the weights and biases are read whole. -/
theorem flushed_eq (c : Dev nD) (t : Fin cfg1.N) :
    (dat1 (F := Ideal) V c).flushed 7 t = ((cfg1.win 7).blk t).view.read (Elt Ideal)
      (nodeK (N := 50000) (V c main_v4) (V c main_v29) (V c main_v30) (V c main_v31) (V c main_v32) (V c main_arg9) (V c main_v33)) := by
  show (cfg1.win 7).cut (grid1.coords t) ((dat1 V c).after 7 t) = _
  rw [after1_7]
  unfold out1_7
  rw [View.canon_unit_zero hz]
  simp only [View.ld_unit_zero (S := S5000x128) hz, View.ld_unit_zero (S := S5000x64) hz, View.ld_unit_zero (S := S128x128) hz, View.ld_unit_zero (S := S64x128) hz, View.ld_unit_zero (S := S1x128) hz]
  rw [node_payload]
  funext y
  obtain ⟨e00, e01, e10, e11, e70, e71, e20, e21, e30, e31, e40, e41, e50, e51, e60, e61⟩ := idx_facts t
  show nodeK (N := 5000) (iblk1 V c 0 t) (iblk1 V c 1 t) (iblk1 V c 2 t) (iblk1 V c 3 t) (iblk1 V c 4 t) (iblk1 V c 5 t) (iblk1 V c 6 t) y
    = nodeK (N := 50000) (V c main_v4) (V c main_v29) (V c main_v30) (V c main_v31) (V c main_v32) (V c main_arg9) (V c main_v33) (((cfg1.win 7).blk t).view.emb y)
  have L0 : ∀ k : Fin 128, iblk1 V c 0 t (ix2 (y 0) k) = V c main_v4 (ix2 ((((cfg1.win 7).blk t).view.emb y) 0) k) := fun k => by
    show V c main_v4 (((cfg1.win 0).blk t).view.emb (ix2 (y 0) k)) = _
    refine congrArg _ (funext fun a => Fin.ext ?_)
    match a with
    | ⟨0, _⟩ => show win1_0.index t (0 : Fin 2) * 5000 + 1 * (y 0).val = win1_7.index t (0 : Fin 2) * 5000 + 1 * (y 0).val; omega
    | ⟨1, _⟩ => show win1_0.index t (1 : Fin 2) * 128 + 1 * k.val = k.val; omega
  have L1 : ∀ k : Fin 64, iblk1 V c 1 t (ix2 (y 0) k) = V c main_v29 (ix2 ((((cfg1.win 7).blk t).view.emb y) 0) k) := fun k => by
    show V c main_v29 (((cfg1.win 1).blk t).view.emb (ix2 (y 0) k)) = _
    refine congrArg _ (funext fun a => Fin.ext ?_)
    match a with
    | ⟨0, _⟩ => show win1_1.index t (0 : Fin 2) * 5000 + 1 * (y 0).val = win1_7.index t (0 : Fin 2) * 5000 + 1 * (y 0).val; omega
    | ⟨1, _⟩ => show win1_1.index t (1 : Fin 2) * 64 + 1 * k.val = k.val; omega
  have L2 : ∀ z, iblk1 V c 2 t z = V c main_v30 z := fun z => by
    show V c main_v30 (((cfg1.win 2).blk t).view.emb z) = _
    refine congrArg _ (funext fun a => Fin.ext ?_)
    match a with
    | ⟨0, _⟩ => show win1_2.index t (0 : Fin 2) * 128 + 1 * (z 0).val = (z 0).val; omega
    | ⟨1, _⟩ => show win1_2.index t (1 : Fin 2) * 128 + 1 * (z 1).val = (z 1).val; omega
  have L3 : ∀ z, iblk1 V c 3 t z = V c main_v31 z := fun z => by
    show V c main_v31 (((cfg1.win 3).blk t).view.emb z) = _
    refine congrArg _ (funext fun a => Fin.ext ?_)
    match a with
    | ⟨0, _⟩ => show win1_3.index t (0 : Fin 2) * 64 + 1 * (z 0).val = (z 0).val; omega
    | ⟨1, _⟩ => show win1_3.index t (1 : Fin 2) * 128 + 1 * (z 1).val = (z 1).val; omega
  have L4 : ∀ z, iblk1 V c 4 t z = V c main_v32 z := fun z => by
    show V c main_v32 (((cfg1.win 4).blk t).view.emb z) = _
    refine congrArg _ (funext fun a => Fin.ext ?_)
    match a with
    | ⟨0, _⟩ => show win1_4.index t (0 : Fin 2) * 1 + 1 * (z 0).val = (z 0).val; omega
    | ⟨1, _⟩ => show win1_4.index t (1 : Fin 2) * 128 + 1 * (z 1).val = (z 1).val; omega
  have L5 : ∀ z, iblk1 V c 5 t z = V c main_arg9 z := fun z => by
    show V c main_arg9 (((cfg1.win 5).blk t).view.emb z) = _
    refine congrArg _ (funext fun a => Fin.ext ?_)
    match a with
    | ⟨0, _⟩ => show win1_5.index t (0 : Fin 2) * 128 + 1 * (z 0).val = (z 0).val; omega
    | ⟨1, _⟩ => show win1_5.index t (1 : Fin 2) * 128 + 1 * (z 1).val = (z 1).val; omega
  have L6 : ∀ z, iblk1 V c 6 t z = V c main_v33 z := fun z => by
    show V c main_v33 (((cfg1.win 6).blk t).view.emb z) = _
    refine congrArg _ (funext fun a => Fin.ext ?_)
    match a with
    | ⟨0, _⟩ => show win1_6.index t (0 : Fin 2) * 1 + 1 * (z 0).val = (z 0).val; omega
    | ⟨1, _⟩ => show win1_6.index t (1 : Fin 2) * 128 + 1 * (z 1).val = (z 1).val; omega
  have hE1 : (((cfg1.win 7).blk t).view.emb y) 1 = y 1 := Fin.ext (by
    show win1_7.index t (1 : Fin 2) * 128 + 1 * (y 1).val = (y 1).val; omega)
  simp only [nodeK, L0, L1, L2, L3, L4, L5, L6, hE1]

/-- An index of the array is in point `t`'s block iff each coordinate is in the block's range on its axis. -/
theorem mem_blk (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v34).slice (win1_7.rect t)).set ↔ _
  rw [View.set_slice_whole, Rect.mem_set_unit]
  exact Iff.rfl

/-- Every row of the array lies in the block of the point that its number divided by 5000 names. -/
theorem cover (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : (i 0).val / 5000 < cfg1.N := by show (i 0).val / 5000 < 10; omega
  obtain ⟨-, -, -, -, eo0, eo1, -⟩ := idx_facts ⟨(i 0).val / 5000, hN⟩
  refine ⟨⟨(i 0).val / 5000, hN⟩, flush1_7 _, ?_⟩
  rw [mem_blk]
  intro a
  match a with
  | ⟨0, _⟩ =>
    show win1_7.index ⟨(i 0).val / 5000, hN⟩ (0 : Fin 2) * 5000 ≤ (i 0).val ∧ (i 0).val < win1_7.index ⟨(i 0).val / 5000, hN⟩ (0 : Fin 2) * 5000 + 5000
    rw [eo0]; show (i 0).val / 5000 * 5000 ≤ (i 0).val ∧ (i 0).val < (i 0).val / 5000 * 5000 + 5000; omega
  | ⟨1, _⟩ =>
    show win1_7.index ⟨(i 0).val / 5000, hN⟩ (1 : Fin 2) * 128 ≤ (i 1).val ∧ (i 1).val < win1_7.index ⟨(i 0).val / 5000, hN⟩ (1 : Fin 2) * 128 + 128
    rw [eo1]; omega

/-- The region's output array after the region: the network's closed form on the whole arrays the region finds. -/
theorem out_array (c : Dev nD) :
    (dat1 (F := Ideal) V c).arrAt 7 cfg1.N = nodeK (N := 50000) (V c main_v4) (V c main_v29) (V c main_v30) (V c main_v31) (V c main_v32) (V c main_arg9) (V c main_v33) :=
  (dat1 (F := Ideal) V c).arrAt_eq_of_cover 7 _ (fun t _ => flushed_eq V c t) cover

end Cert.KernelIdeal.NodeBlocks

end
-- ==== Proof.Operands.lean ====
/-
  What the two regions find in their operands, and where the two results end.

  Before the edge region the host takes the two rows of the index table (senders, receivers), gathers the node row each
  index names — a negative index counting from the end —, narrows the node and edge rows' float format (the identity at the
  ideal values), cuts the first weight matrix into the three bands of rows that face the sender part, the receiver part
  and the edge part of a joined feature row, and lays the two bias vectors out as one-row matrices.  Between the regions
  it sums, per node, the new edge rows of the edges the node receives, and cuts the node network's first weight matrix
  into its two bands.  Here each operand array of each region is written as that function of the program's arguments (and,
  for the sums, of the edge region's output array), and the two result buffers at the end of the program are traced back
  to the two regions' output arrays.
-/
import proofs.«125385_j28217935135269_2_alg».proof.Proof.Gen.KernelIdeal.Frame
import proofs.«125385_j28217935135269_2_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Operands

open Cert.KernelIdeal Cert.KernelIdeal.Gen Cert.MessagePassing
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The index arrays -/

/-- Row 0 of the 2 × 800000 index table: each edge's sender. -/
def senders (x2 : (⟨S2x800000, .i32⟩ : BufTy).Contents (Elt Ideal)) : (⟨S800000, .i32⟩ : BufTy).Contents (Elt Ideal) :=
  fun i => shapeCast main_v1.ty.shape (extractStridedSlice S1x800000 ![0, 0] x2 slices_S2x800000_S1x800000_0_0)
    shapeCasts_S1x800000_S800000 i

/-- Row 1 of the index table: each edge's receiver. -/
def receivers (x2 : (⟨S2x800000, .i32⟩ : BufTy).Contents (Elt Ideal)) : (⟨S800000, .i32⟩ : BufTy).Contents (Elt Ideal) :=
  fun i => shapeCast main_v3.ty.shape (extractStridedSlice S1x800000 ![1, 0] x2 slices_S2x800000_S1x800000_1_0)
    shapeCasts_S1x800000_S800000 i

/-- A node index as a row gather takes it: a negative index counts from the end (50000 is added to it), and the
    vector becomes a column of one-entry index vectors. -/
def wrapped (r : (⟨S800000, .i32⟩ : BufTy).Contents (Elt Ideal)) : (⟨S800000x1, .i32⟩ : BufTy).Contents (Elt Ideal) :=
  broadcastInDim S800000x1 ![0] bcast_S800000_S800000x1_0
    (select (cmpi CmpIPredicate.slt r (broadcastInDim S800000 ![] bcast_S_S800000 (constantI S_ 32 0#32)))
      (addi r (broadcastInDim S800000 ![] bcast_S_S800000 (constantI S_ 32 50000#32))) r)

/-- The node rows an index column names, one per edge. -/
def gatherRows (x0 : (⟨S50000x128, .f32⟩ : BufTy).Contents (Elt Ideal)) (ix : (⟨S800000x1, .i32⟩ : BufTy).Contents (Elt Ideal)) :
    (⟨S800000x128, .f32⟩ : BufTy).Contents (Elt Ideal) :=
  Host.gather gather_S50000x128_S800000x1_S800000x128_1_0_n_n_0_1_1128 x0 ix

/-- Each node's sum of the rows `u` of the edges it receives, from zero. -/
def sumInto (r : (⟨S800000, .i32⟩ : BufTy).Contents (Elt Ideal)) (u : (⟨S800000x64, .f32⟩ : BufTy).Contents (Elt Ideal)) :
    (⟨S50000x64, .f32⟩ : BufTy).Contents (Elt Ideal) :=
  Host.scatterAdd (F := Ideal) scatter_S50000x64_S800000x1_S800000x64_1_0_0_1
    (broadcastInDim S50000x64 ![] bcast_S_S50000x64 (constant (F := Ideal) S_ FTy.f32 0#32))
    (broadcastInDim S800000x1 ![0] bcast_S800000_S800000x1_0 r) u

/-! ## Slices and reshapes as bands and rows -/

theorem slice320_0 (x : (⟨S320x128, .f32⟩ : BufTy).Contents (Elt Ideal)) :
    extractStridedSlice S128x128 ![0, 0] x slices_S320x128_S128x128_0_0 = band 0 128 (by omega) x := by
  funext j
  exact extractStridedSlice_apply ![0, 0] x slices_S320x128_S128x128_0_0 j _ (fun a => match a with
    | ⟨0, _⟩ => rfl
    | ⟨1, _⟩ => by show (j 1).val = 0 + (j 1).val; omega)

theorem slice320_128 (x : (⟨S320x128, .f32⟩ : BufTy).Contents (Elt Ideal)) :
    extractStridedSlice S128x128 ![128, 0] x slices_S320x128_S128x128_128_0 = band 128 128 (by omega) x := by
  funext j
  exact extractStridedSlice_apply ![128, 0] x slices_S320x128_S128x128_128_0 j _ (fun a => match a with
    | ⟨0, _⟩ => rfl
    | ⟨1, _⟩ => by show (j 1).val = 0 + (j 1).val; omega)

theorem slice320_256 (x : (⟨S320x128, .f32⟩ : BufTy).Contents (Elt Ideal)) :
    extractStridedSlice S64x128 ![256, 0] x slices_S320x128_S64x128_256_0 = band 256 64 (by omega) x := by
  funext j
  exact extractStridedSlice_apply ![256, 0] x slices_S320x128_S64x128_256_0 j _ (fun a => match a with
    | ⟨0, _⟩ => rfl
    | ⟨1, _⟩ => by show (j 1).val = 0 + (j 1).val; omega)

theorem slice192_0 (x : (⟨S192x128, .f32⟩ : BufTy).Contents (Elt Ideal)) :
    extractStridedSlice S128x128 ![0, 0] x slices_S192x128_S128x128_0_0 = band 0 128 (by omega) x := by
  funext j
  exact extractStridedSlice_apply ![0, 0] x slices_S192x128_S128x128_0_0 j _ (fun a => match a with
    | ⟨0, _⟩ => rfl
    | ⟨1, _⟩ => by show (j 1).val = 0 + (j 1).val; omega)

theorem slice192_128 (x : (⟨S192x128, .f32⟩ : BufTy).Contents (Elt Ideal)) :
    extractStridedSlice S64x128 ![128, 0] x slices_S192x128_S64x128_128_0 = band 128 64 (by omega) x := by
  funext j
  exact extractStridedSlice_apply ![128, 0] x slices_S192x128_S64x128_128_0 j _ (fun a => match a with
    | ⟨0, _⟩ => rfl
    | ⟨1, _⟩ => by show (j 1).val = 0 + (j 1).val; omega)

theorem row128 (x : (⟨S128, .f32⟩ : BufTy).Contents (Elt Ideal)) :
    (fun i => shapeCast S1x128 x shapeCasts_S128_S1x128 i) = rowOf x := by
  funext j
  rw [eq_ix2 j]
  exact shapeCast_a_1a_apply x shapeCasts_S128_S1x128 (j 0) (j 1)

theorem row64 (x : (⟨S64, .f32⟩ : BufTy).Contents (Elt Ideal)) :
    (fun i => shapeCast S1x64 x shapeCasts_S64_S1x64 i) = rowOf x := by
  funext j
  rw [eq_ix2 j]
  exact shapeCast_a_1a_apply x shapeCasts_S64_S1x64 (j 0) (j 1)

/-! ## What the edge region finds in its operands -/

theorem e_v12 (c : Dev nD) : V1 m ρ c main_v12 = gatherRows (m ((c : Thread nD τ).loc main_arg0)) (wrapped (senders (m ((c : Thread nD τ).loc main_arg2)))) := by
  show StableHlo.after hostOps0 (W0 m ρ c) (Proc.devRef .tc main_v12) = _
  after_results_simp
  rfl

theorem e_v19 (c : Dev nD) : V1 m ρ c main_v19 = gatherRows (m ((c : Thread nD τ).loc main_arg0)) (wrapped (receivers (m ((c : Thread nD τ).loc main_arg2)))) := by
  show StableHlo.after hostOps0 (W0 m ρ c) (Proc.devRef .tc main_v19) = _
  after_results_simp
  rfl

theorem e_v5 (c : Dev nD) : V1 m ρ c main_v5 = (m ((c : Thread nD τ).loc main_arg1)) := by
  show StableHlo.after hostOps0 (W0 m ρ c) (Proc.devRef .tc main_v5) = _
  after_results_simp
  rfl

theorem e_v20 (c : Dev nD) : V1 m ρ c main_v20 = band 0 128 (by omega) (m ((c : Thread nD τ).loc main_arg3)) := by
  show StableHlo.after hostOps0 (W0 m ρ c) (Proc.devRef .tc main_v20) = _
  after_results_simp
  exact slice320_0 _

theorem e_v21 (c : Dev nD) : V1 m ρ c main_v21 = band 128 128 (by omega) (m ((c : Thread nD τ).loc main_arg3)) := by
  show StableHlo.after hostOps0 (W0 m ρ c) (Proc.devRef .tc main_v21) = _
  after_results_simp
  exact slice320_128 _

theorem e_v22 (c : Dev nD) : V1 m ρ c main_v22 = band 256 64 (by omega) (m ((c : Thread nD τ).loc main_arg3)) := by
  show StableHlo.after hostOps0 (W0 m ρ c) (Proc.devRef .tc main_v22) = _
  after_results_simp
  exact slice320_256 _

theorem e_v23 (c : Dev nD) : V1 m ρ c main_v23 = rowOf (m ((c : Thread nD τ).loc main_arg4)) := by
  show StableHlo.after hostOps0 (W0 m ρ c) (Proc.devRef .tc main_v23) = _
  after_results_simp
  exact row128 _

theorem e_v24 (c : Dev nD) : V1 m ρ c main_v24 = rowOf (m ((c : Thread nD τ).loc main_arg6)) := by
  show StableHlo.after hostOps0 (W0 m ρ c) (Proc.devRef .tc main_v24) = _
  after_results_simp
  exact row64 _

theorem e_arg5 (c : Dev nD) : V1 m ρ c main_arg5 = (m ((c : Thread nD τ).loc main_arg5)) := by
  show StableHlo.after hostOps0 (W0 m ρ c) (Proc.devRef .tc main_arg5) = _
  after_results_simp <;> rfl

/-- The receivers, as the first stretch of host operations leaves them. -/
theorem w1_v3 (c : Dev nD) : W1 m ρ c (Proc.devRef .tc main_v3) = receivers (m ((c : Thread nD τ).loc main_arg2)) := by
  show StableHlo.after hostOps0 (W0 m ρ c) (Proc.devRef .tc main_v3) = _
  after_results_simp
  rfl

/-- The node rows in the narrow format, as the first stretch leaves them: at the ideal values the node rows. -/
theorem w1_v4 (c : Dev nD) : W1 m ρ c (Proc.devRef .tc main_v4) = (m ((c : Thread nD τ).loc main_arg0)) := by
  show StableHlo.after hostOps0 (W0 m ρ c) (Proc.devRef .tc main_v4) = _
  after_results_simp
  rfl

/-! ## Across the edge region: its output array is what its write-backs leave, every other buffer is kept -/

theorem w2_v25 (c : Dev nD) : W2 m ρ c (Proc.devRef .tc main_v25) = (dat0 (V1 m ρ) c).arrAt 9 cfg0.N := W2_arr m ρ c 9

theorem w2_arg7 (c : Dev nD) : W2 m ρ c (Proc.devRef .tc main_arg7) = (m ((c : Thread nD τ).loc main_arg7)) :=
  (W2_of_ne m ρ c main_arg7 (by decide)).trans (by
    show StableHlo.after hostOps0 (W0 m ρ c) (Proc.devRef .tc main_arg7) = _
    after_results_simp <;> rfl)

theorem w2_arg8 (c : Dev nD) : W2 m ρ c (Proc.devRef .tc main_arg8) = (m ((c : Thread nD τ).loc main_arg8)) :=
  (W2_of_ne m ρ c main_arg8 (by decide)).trans (by
    show StableHlo.after hostOps0 (W0 m ρ c) (Proc.devRef .tc main_arg8) = _
    after_results_simp <;> rfl)

theorem w2_arg9 (c : Dev nD) : W2 m ρ c (Proc.devRef .tc main_arg9) = (m ((c : Thread nD τ).loc main_arg9)) :=
  (W2_of_ne m ρ c main_arg9 (by decide)).trans (by
    show StableHlo.after hostOps0 (W0 m ρ c) (Proc.devRef .tc main_arg9) = _
    after_results_simp <;> rfl)

theorem w2_arg10 (c : Dev nD) : W2 m ρ c (Proc.devRef .tc main_arg10) = (m ((c : Thread nD τ).loc main_arg10)) :=
  (W2_of_ne m ρ c main_arg10 (by decide)).trans (by
    show StableHlo.after hostOps0 (W0 m ρ c) (Proc.devRef .tc main_arg10) = _
    after_results_simp <;> rfl)

/-! ## What the node region finds in its operands -/

theorem f_v4 (c : Dev nD) : V3 m ρ c main_v4 = (m ((c : Thread nD τ).loc main_arg0)) := by
  show StableHlo.after hostOps1 (W2 m ρ c) (Proc.devRef .tc main_v4) = _
  after_results_simp
  rw [W2_of_ne m ρ c main_v4 (by decide)]
  exact w1_v4 m ρ c

/-- A change of float format is the identity at the ideal values. -/
theorem truncf_id {s : Shape} (a : FVec Ideal s .f32) (h : FTy.bf16.bits < FTy.f32.bits) :
    (truncf (F := Ideal) .bf16 a h : s.Idx → EReal) = a := rfl

theorem f_v29 (c : Dev nD) : V3 m ρ c main_v29 = sumInto (receivers (m ((c : Thread nD τ).loc main_arg2))) ((dat0 (V1 m ρ) c).arrAt 9 cfg0.N) := by
  show StableHlo.after hostOps1 (W2 m ρ c) (Proc.devRef .tc main_v29) = _
  after_results_simp
  rw [W2_of_ne m ρ c main_v3 (by decide), w1_v3, w2_v25]
  unfold sumInto
  exact truncf_id _ _

theorem f_v30 (c : Dev nD) : V3 m ρ c main_v30 = band 0 128 (by omega) (m ((c : Thread nD τ).loc main_arg7)) := by
  show StableHlo.after hostOps1 (W2 m ρ c) (Proc.devRef .tc main_v30) = _
  after_results_simp
  rw [w2_arg7]
  exact slice192_0 _

theorem f_v31 (c : Dev nD) : V3 m ρ c main_v31 = band 128 64 (by omega) (m ((c : Thread nD τ).loc main_arg7)) := by
  show StableHlo.after hostOps1 (W2 m ρ c) (Proc.devRef .tc main_v31) = _
  after_results_simp
  rw [w2_arg7]
  exact slice192_128 _

theorem f_v32 (c : Dev nD) : V3 m ρ c main_v32 = rowOf (m ((c : Thread nD τ).loc main_arg8)) := by
  show StableHlo.after hostOps1 (W2 m ρ c) (Proc.devRef .tc main_v32) = _
  after_results_simp
  rw [w2_arg8]
  exact row128 _

theorem f_v33 (c : Dev nD) : V3 m ρ c main_v33 = rowOf (m ((c : Thread nD τ).loc main_arg10)) := by
  show StableHlo.after hostOps1 (W2 m ρ c) (Proc.devRef .tc main_v33) = _
  after_results_simp
  rw [w2_arg10]
  exact row128 _

theorem f_arg9 (c : Dev nD) : V3 m ρ c main_arg9 = (m ((c : Thread nD τ).loc main_arg9)) := by
  show StableHlo.after hostOps1 (W2 m ρ c) (Proc.devRef .tc main_arg9) = _
  after_results_simp
  exact w2_arg9 m ρ c

/-! ## The two results at the last boundary -/

/-- The edge result is not touched after its region. -/
theorem w4_v25 (c : Dev nD) : W4 m ρ c (Proc.devRef .tc main_v25) = (dat0 (V1 m ρ) c).arrAt 9 cfg0.N := by
  rw [W4_of_ne m ρ c main_v25 (by decide)]
  show StableHlo.after hostOps1 (W2 m ρ c) (Proc.devRef .tc main_v25) = _
  after_results_simp
  exact w2_v25 m ρ c

theorem w4_v34 (c : Dev nD) : W4 m ρ c (Proc.devRef .tc main_v34) = (dat1 (V3 m ρ) c).arrAt 7 cfg1.N := W4_arr m ρ c 7

end Cert.KernelIdeal.Operands

end
-- ==== Proof.KernelResults.lean ====
/-
  The kernel program's two results as functions of its arguments.

  At the end of the program the edge result buffer holds the edge region's output array and the node result buffer the
  node region's.  Each region's output array is its network's closed form on the operand arrays the region finds, and
  those are the gathered node rows, the edge rows, the bands of the weight matrices and the bias rows (for the node
  region: the node rows and the per-node sums of the NEW edge rows).  Put together: the edge result is the edge network
  of the gathered rows, and the node result is the node network of the node rows and of the sums of the edge result.
-/
import proofs.«125385_j28217935135269_2_alg».proof.Proof.EdgeBlocks
import proofs.«125385_j28217935135269_2_alg».proof.Proof.NodeBlocks
import proofs.«125385_j28217935135269_2_alg».proof.Proof.Operands

set_option maxRecDepth 16384

noncomputable section

namespace Cert.KernelIdeal.Results

open Cert.KernelIdeal Cert.KernelIdeal.Gen Cert.KernelIdeal.Operands Cert.MessagePassing
open Idealize.ShloMosaic Idealize.ShloMosaic.TcCoe Idealize.SL.Sem

variable (m : (ℓ : Loc nD τ sig) → Buf (Elt Ideal) ℓ) (ρ : Dev nD → PrngReg)

/-- The edge result: the edge network of the gathered sender rows, the gathered receiver rows and the edge rows. -/
theorem edge_result (c : Dev nD) :
    W4 m ρ c (Proc.devRef .tc main_v25) = edgeOut (gatherRows (m ((c : Thread nD τ).loc main_arg0)) (wrapped (senders (m ((c : Thread nD τ).loc main_arg2))))) (gatherRows (m ((c : Thread nD τ).loc main_arg0)) (wrapped (receivers (m ((c : Thread nD τ).loc main_arg2))))) (m ((c : Thread nD τ).loc main_arg1)) (m ((c : Thread nD τ).loc main_arg3)) (m ((c : Thread nD τ).loc main_arg4)) (m ((c : Thread nD τ).loc main_arg5)) (m ((c : Thread nD τ).loc main_arg6)) := by
  unfold edgeOut
  rw [w4_v25, EdgeBlocks.out_array, e_v12, e_v19, e_v5, e_v20, e_v21, e_v22, e_v23, e_arg5, e_v24]

/-- The node result: the node network of the node rows and of each node's sum of the new rows of the edges it
    receives. -/
theorem node_result (c : Dev nD) :
    W4 m ρ c (Proc.devRef .tc main_v34) = nodeOut (m ((c : Thread nD τ).loc main_arg0)) (sumInto (receivers (m ((c : Thread nD τ).loc main_arg2))) (edgeOut (gatherRows (m ((c : Thread nD τ).loc main_arg0)) (wrapped (senders (m ((c : Thread nD τ).loc main_arg2))))) (gatherRows (m ((c : Thread nD τ).loc main_arg0)) (wrapped (receivers (m ((c : Thread nD τ).loc main_arg2))))) (m ((c : Thread nD τ).loc main_arg1)) (m ((c : Thread nD τ).loc main_arg3)) (m ((c : Thread nD τ).loc main_arg4)) (m ((c : Thread nD τ).loc main_arg5)) (m ((c : Thread nD τ).loc main_arg6)))) (m ((c : Thread nD τ).loc main_arg7)) (m ((c : Thread nD τ).loc main_arg8)) (m ((c : Thread nD τ).loc main_arg9)) (m ((c : Thread nD τ).loc main_arg10)) := by
  unfold nodeOut edgeOut
  rw [w4_v34, NodeBlocks.out_array, f_v4, f_v29, EdgeBlocks.out_array, e_v12, e_v19, e_v5, e_v20, e_v21, e_v22, e_v23,
    e_arg5, e_v24, f_v30, f_v31, f_v32, f_arg9, f_v33]

end Cert.KernelIdeal.Results

end
-- ==== Proof.RefValue.lean ====
/-
  The reference's two networks, read element by element.

  The reference computes one message-passing layer with whole-array operations: it lays each edge's sender row, receiver
  row and own row side by side (128 + 128 + 64 = 320 columns), multiplies the joined array by W1, adds b1 along rows, applies
  silu written out as  x * (1 / (1 + exp (-x))),  multiplies by W2, adds b2, applies silu again; then, per node, it lays the
  node's row beside the 64 sums of its incoming edges (128 + 64 = 192 columns) and applies the second network the same way,
  without the last silu.

  Read at one element, a product with a joined array is one finite sum over the joined columns; cut at the joints it is the
  sum of the products of the parts with the bands of W1 that face them (a regrouping of a finite sum, valid on the extended
  reals without any finiteness hypothesis). That is the banded form of the specification, so the two agree element by
  element. The gathered rows and the per-node sums are not opened: they are the same terms on both sides.
-/
import proofs.«125385_j28217935135269_2_alg».proof.Proof.Gen.ReferenceIdeal.Read
import proofs.«125385_j28217935135269_2_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.Read Cert.MessagePassing Idealize.ShloMosaic Idealize.ShloMosaic.ValueIdx

/-! ## silu, written out -/

/-- The written-out form  x * (1 / (1 + exp (-x)))  with the constant one given by its f32 pattern is silu. -/
theorem silu_read (x : Ideal .f32) :
    FloatOps.mulf x (FloatOps.hostDivf (FloatOps.ofBits (F := Ideal) .f32 0x3F800000#32)
      (FloatOps.addf (FloatOps.ofBits (F := Ideal) .f32 0x3F800000#32) (FloatOps.hostUnary .exp (FloatOps.hostNegf x))))
      = silu x := by
  show x * Ideal.div (Ideal.ofBits .f32 0x3F800000#32) (Ideal.ofBits .f32 0x3F800000#32 + Ideal.exp (-x)) = x * Ideal.logistic x
  rw [Ideal.ofBits_one_f32]
  rfl

/-! ## Indices from their coordinates -/

/-- A rank-2 index with the coordinates of a and b is the pair of a and b. -/
theorem pair_eq {n0 n1 : ℕ} (f : (⟨2, ![n0, n1]⟩ : Shape).Idx) (a : Fin n0) (b : Fin n1) (h0 : (f 0).val = a.val)
    (h1 : (f 1).val = b.val) : f = ix2 a b := by
  funext d
  match d with
  | ⟨0, _⟩ => exact Fin.ext h0
  | ⟨1, _⟩ => exact Fin.ext h1

/-- A rank-1 index with the coordinate of a is the index a. -/
theorem single_eq {n : ℕ} (f : (⟨1, ![n]⟩ : Shape).Idx) (a : Fin n) (h0 : (f 0).val = a.val) : f = ix1 a := by
  funext d
  match d with
  | ⟨0, _⟩ => exact Fin.ext h0

/-- A band of W at a row and a column is W at the row shifted by the band's start. -/
theorem band_at {R C : ℕ} (o n : ℕ) (h : o + n ≤ R) (W : Mat R C) (k : Fin n) (c : Fin C) :
    band o n h W (ix2 k c) = W (ix2 ⟨o + k.val, by have := k.isLt; omega⟩ c) := rfl

/-- A vector laid out as one row, at a column, is the vector there. -/
theorem rowOf_at {C : ℕ} (b : Vc C) (c : Fin C) : rowOf b (ix2 0 c) = b (ix1 c) := rfl

/-! ## The edge network -/

section Edge
variable (x0 : (⟨S50000x128, .f32⟩ : BufTy).Contents (Elt Ideal)) (x1 : (⟨S800000x64, .f32⟩ : BufTy).Contents (Elt Ideal))
  (x2 : (⟨S2x800000, .i32⟩ : BufTy).Contents (Elt Ideal)) (x3 : (⟨S320x128, .f32⟩ : BufTy).Contents (Elt Ideal))
  (x4 : (⟨S128, .f32⟩ : BufTy).Contents (Elt Ideal)) (x5 : (⟨S128x64, .f32⟩ : BufTy).Contents (Elt Ideal))
  (x6 : (⟨S64, .f32⟩ : BufTy).Contents (Elt Ideal))

/-- Columns 0 … 127 of the joined edge array are the sender rows. -/
theorem join_sender (f : S800000x320.Idx) (r : Fin 800000) (k : Fin 128) (h0 : (f 0).val = r.val) (h1 : (f 1).val = k.val) :
    val_main_v18 (F := Ideal) x0 x1 x2 f = val_main_v10 (F := Ideal) x0 x2 (ix2 r k) := by
  unfold val_main_v18
  exact concatenate_apply_piece (t := S800000x320) 1 _ _ f 0 (by simp) S800000x128 _ rfl rfl 0 rfl (ix2 r k)
    (fun b hb => by
      match b, hb with
      | ⟨0, _⟩, _ => exact h0.symm
      | ⟨1, _⟩, hb => exact absurd rfl hb)
    (by show 0 + k.val = (f 1).val; omega)

/-- Columns 128 … 255 of the joined edge array are the receiver rows. -/
theorem join_receiver (f : S800000x320.Idx) (r : Fin 800000) (k : Fin 128) (h0 : (f 0).val = r.val)
    (h1 : (f 1).val = 128 + k.val) :
    val_main_v18 (F := Ideal) x0 x1 x2 f = val_main_v17 (F := Ideal) x0 x2 (ix2 r k) := by
  unfold val_main_v18
  exact concatenate_apply_piece (t := S800000x320) 1 _ _ f 1 (by simp) S800000x128 _ rfl rfl 128 rfl (ix2 r k)
    (fun b hb => by
      match b, hb with
      | ⟨0, _⟩, _ => exact h0.symm
      | ⟨1, _⟩, hb => exact absurd rfl hb)
    (by show 128 + k.val = (f 1).val; omega)

/-- Columns 256 … 319 of the joined edge array are the edges' own rows. -/
theorem join_own (f : S800000x320.Idx) (r : Fin 800000) (k : Fin 64) (h0 : (f 0).val = r.val)
    (h1 : (f 1).val = 256 + k.val) :
    val_main_v18 (F := Ideal) x0 x1 x2 f = x1 (ix2 r k) := by
  unfold val_main_v18
  exact concatenate_apply_piece (t := S800000x320) 1 _ _ f 2 (by simp) S800000x64 _ rfl rfl 256 rfl (ix2 r k)
    (fun b hb => by
      match b, hb with
      | ⟨0, _⟩, _ => exact h0.symm
      | ⟨1, _⟩, hb => exact absurd rfl hb)
    (by show 256 + k.val = (f 1).val; omega)

/-- The product of the joined edge array with W1, band by band. -/
theorem v19_at (p : Fin 800000) (q : Fin 128) :
    val_main_v19 (F := Ideal) x0 x1 x2 x3 (ix2 p q)
      = ((∑ k : Fin 128, val_main_v10 (F := Ideal) x0 x2 (ix2 p k) * band 0 128 (by omega) x3 (ix2 k q))
          + ∑ k : Fin 128, val_main_v17 (F := Ideal) x0 x2 (ix2 p k) * band 128 128 (by omega) x3 (ix2 k q))
        + ∑ k : Fin 64, x1 (ix2 p k) * band 256 64 (by omega) x3 (ix2 k q) := by
  rw [val_main_v19_apply, sum_bands_320]
  refine congrArg₂ (· + ·) (congrArg₂ (· + ·) (Finset.sum_congr rfl fun k _ => ?_) (Finset.sum_congr rfl fun k _ => ?_))
    (Finset.sum_congr rfl fun k _ => ?_)
  · rw [band_at]
    exact congrArg₂ (· * ·) (join_sender x0 x1 x2 _ p k rfl rfl) (congrArg x3 (pair_eq _ _ _ (Nat.zero_add _).symm rfl))
  · rw [band_at]
    exact congrArg₂ (· * ·) (join_receiver x0 x1 x2 _ p k rfl rfl) (congrArg x3 (pair_eq _ _ _ rfl rfl))
  · rw [band_at]
    exact congrArg₂ (· * ·) (join_own x0 x1 x2 _ p k rfl rfl) (congrArg x3 (pair_eq _ _ _ rfl rfl))

/-- The first layer before its activation: the banded product plus the bias. -/
theorem v22_at (p : Fin 800000) (q : Fin 128) :
    val_main_v22 (F := Ideal) x0 x1 x2 x3 x4 (ix2 p q)
      = val_main_v19 (F := Ideal) x0 x1 x2 x3 (ix2 p q) + rowOf x4 (ix2 0 q) := by
  rw [val_main_v22_apply, val_main_v21_apply, val_main_v20_apply, rowOf_at]
  exact congrArg (fun z => val_main_v19 (F := Ideal) x0 x1 x2 x3 (ix2 p q) + x4 z) (single_eq _ _ rfl)

/-- The first layer's activation is silu. -/
theorem v23_at (j : S800000x128.Idx) :
    val_main_v23 (F := Ideal) x0 x1 x2 x3 x4 j = silu (val_main_v22 (F := Ideal) x0 x1 x2 x3 x4 j) := by
  rw [val_main_v23_apply, val_main_call0_v5_apply, val_main_call0_v4_apply, val_main_call0_cst_0_apply,
    val_main_call0_v3_apply, val_main_call0_v2_apply, val_main_call0_cst_apply, val_main_call0_v1_apply,
    val_main_call0_v0_apply]
  exact silu_read _

/-- The second layer before its activation. -/
theorem v27_at (p : Fin 800000) (q : Fin 64) :
    val_main_v27 (F := Ideal) x0 x1 x2 x3 x4 x5 x6 (ix2 p q)
      = (∑ c : Fin 128, val_main_v23 (F := Ideal) x0 x1 x2 x3 x4 (ix2 p c) * x5 (ix2 c q)) + rowOf x6 (ix2 0 q) := by
  rw [val_main_v27_apply, val_main_v24_apply, val_main_v26_apply, val_main_v25_apply, rowOf_at]
  refine congrArg₂ (· + ·) (Finset.sum_congr rfl fun c _ => ?_) (congrArg x6 (single_eq _ _ rfl))
  exact congrArg₂ (· * ·) (congrArg (val_main_v23 (F := Ideal) x0 x1 x2 x3 x4) (pair_eq _ _ _ rfl rfl))
    (congrArg x5 (pair_eq _ _ _ rfl rfl))

/-- The second layer's activation is silu. -/
theorem v28_at (i : S800000x64.Idx) :
    val_main_v28 (F := Ideal) x0 x1 x2 x3 x4 x5 x6 i = silu (val_main_v27 (F := Ideal) x0 x1 x2 x3 x4 x5 x6 i) := by
  rw [val_main_v28_apply, val_main_call1_v5_apply, val_main_call1_v4_apply, val_main_call1_cst_0_apply,
    val_main_call1_v3_apply, val_main_call1_v2_apply, val_main_call1_cst_apply, val_main_call1_v1_apply,
    val_main_call1_v0_apply]
  exact silu_read _

end Edge

/-- The reference's new edge features are the edge network of the gathered sender rows, the gathered receiver rows and
    the edge rows. -/
theorem edge_eq (x0 : (⟨S50000x128, .f32⟩ : BufTy).Contents (Elt Ideal)) (x1 : (⟨S800000x64, .f32⟩ : BufTy).Contents (Elt Ideal))
    (x2 : (⟨S2x800000, .i32⟩ : BufTy).Contents (Elt Ideal)) (x3 : (⟨S320x128, .f32⟩ : BufTy).Contents (Elt Ideal))
    (x4 : (⟨S128, .f32⟩ : BufTy).Contents (Elt Ideal)) (x5 : (⟨S128x64, .f32⟩ : BufTy).Contents (Elt Ideal))
    (x6 : (⟨S64, .f32⟩ : BufTy).Contents (Elt Ideal)) :
    val_main_v28 (F := Ideal) x0 x1 x2 x3 x4 x5 x6
      = edgeOut (val_main_v10 (F := Ideal) x0 x2) (val_main_v17 (F := Ideal) x0 x2) x1 x3 x4 x5 x6 := by
  funext i
  obtain ⟨p, q, rfl⟩ : ∃ (p : Fin 800000) (q : Fin 64), i = ix2 p q := ⟨i 0, i 1, eq_ix2 i⟩
  rw [v28_at, v27_at]
  simp only [v23_at, v22_at, v19_at]
  rfl

/-! ## The node network -/

section Node
variable (x0 : (⟨S50000x128, .f32⟩ : BufTy).Contents (Elt Ideal)) (x1 : (⟨S800000x64, .f32⟩ : BufTy).Contents (Elt Ideal))
  (x2 : (⟨S2x800000, .i32⟩ : BufTy).Contents (Elt Ideal)) (x3 : (⟨S320x128, .f32⟩ : BufTy).Contents (Elt Ideal))
  (x4 : (⟨S128, .f32⟩ : BufTy).Contents (Elt Ideal)) (x5 : (⟨S128x64, .f32⟩ : BufTy).Contents (Elt Ideal))
  (x6 : (⟨S64, .f32⟩ : BufTy).Contents (Elt Ideal)) (x7 : (⟨S192x128, .f32⟩ : BufTy).Contents (Elt Ideal))
  (x8 : (⟨S128, .f32⟩ : BufTy).Contents (Elt Ideal)) (x9 : (⟨S128x128, .f32⟩ : BufTy).Contents (Elt Ideal))
  (x10 : (⟨S128, .f32⟩ : BufTy).Contents (Elt Ideal))

/-- Columns 0 … 127 of the joined node array are the node rows. -/
theorem join_node (f : S50000x192.Idx) (r : Fin 50000) (k : Fin 128) (h0 : (f 0).val = r.val) (h1 : (f 1).val = k.val) :
    val_main_v32 (F := Ideal) x0 x1 x2 x3 x4 x5 x6 f = x0 (ix2 r k) := by
  unfold val_main_v32
  exact concatenate_apply_piece (t := S50000x192) 1 _ _ f 0 (by simp) S50000x128 _ rfl rfl 0 rfl (ix2 r k)
    (fun b hb => by
      match b, hb with
      | ⟨0, _⟩, _ => exact h0.symm
      | ⟨1, _⟩, hb => exact absurd rfl hb)
    (by show 0 + k.val = (f 1).val; omega)

/-- Columns 128 … 191 of the joined node array are the per-node sums of incoming edge features. -/
theorem join_sums (f : S50000x192.Idx) (r : Fin 50000) (k : Fin 64) (h0 : (f 0).val = r.val)
    (h1 : (f 1).val = 128 + k.val) :
    val_main_v32 (F := Ideal) x0 x1 x2 x3 x4 x5 x6 f = val_main_v31 (F := Ideal) x0 x1 x2 x3 x4 x5 x6 (ix2 r k) := by
  unfold val_main_v32
  exact concatenate_apply_piece (t := S50000x192) 1 _ _ f 1 (by simp) S50000x64 _ rfl rfl 128 rfl (ix2 r k)
    (fun b hb => by
      match b, hb with
      | ⟨0, _⟩, _ => exact h0.symm
      | ⟨1, _⟩, hb => exact absurd rfl hb)
    (by show 128 + k.val = (f 1).val; omega)

/-- The product of the joined node array with W1, band by band. -/
theorem v33_at (p : Fin 50000) (q : Fin 128) :
    val_main_v33 (F := Ideal) x0 x1 x2 x3 x4 x5 x6 x7 (ix2 p q)
      = (∑ k : Fin 128, x0 (ix2 p k) * band 0 128 (by omega) x7 (ix2 k q))
        + ∑ k : Fin 64, val_main_v31 (F := Ideal) x0 x1 x2 x3 x4 x5 x6 (ix2 p k) * band 128 64 (by omega) x7 (ix2 k q) := by
  rw [val_main_v33_apply, sum_bands_192]
  refine congrArg₂ (· + ·) (Finset.sum_congr rfl fun k _ => ?_) (Finset.sum_congr rfl fun k _ => ?_)
  · rw [band_at]
    exact congrArg₂ (· * ·) (join_node x0 x1 x2 x3 x4 x5 x6 _ p k rfl rfl)
      (congrArg x7 (pair_eq _ _ _ (Nat.zero_add _).symm rfl))
  · rw [band_at]
    exact congrArg₂ (· * ·) (join_sums x0 x1 x2 x3 x4 x5 x6 _ p k rfl rfl) (congrArg x7 (pair_eq _ _ _ rfl rfl))

/-- The first layer before its activation: the banded product plus the bias. -/
theorem v36_at (p : Fin 50000) (q : Fin 128) :
    val_main_v36 (F := Ideal) x0 x1 x2 x3 x4 x5 x6 x7 x8 (ix2 p q)
      = val_main_v33 (F := Ideal) x0 x1 x2 x3 x4 x5 x6 x7 (ix2 p q) + rowOf x8 (ix2 0 q) := by
  rw [val_main_v36_apply, val_main_v35_apply, val_main_v34_apply, rowOf_at]
  exact congrArg (fun z => val_main_v33 (F := Ideal) x0 x1 x2 x3 x4 x5 x6 x7 (ix2 p q) + x8 z) (single_eq _ _ rfl)

/-- The first layer's activation is silu. -/
theorem v37_at (j : S50000x128.Idx) :
    val_main_v37 (F := Ideal) x0 x1 x2 x3 x4 x5 x6 x7 x8 j
      = silu (val_main_v36 (F := Ideal) x0 x1 x2 x3 x4 x5 x6 x7 x8 j) := by
  rw [val_main_v37_apply, val_main_call2_v5_apply, val_main_call2_v4_apply, val_main_call2_cst_0_apply,
    val_main_call2_v3_apply, val_main_call2_v2_apply, val_main_call2_cst_apply, val_main_call2_v1_apply,
    val_main_call2_v0_apply]
  exact silu_read _

/-- The second layer, which has no activation. -/
theorem v41_at (p : Fin 50000) (q : Fin 128) :
    val_main_v41 (F := Ideal) x0 x1 x2 x3 x4 x5 x6 x7 x8 x9 x10 (ix2 p q)
      = (∑ c : Fin 128, val_main_v37 (F := Ideal) x0 x1 x2 x3 x4 x5 x6 x7 x8 (ix2 p c) * x9 (ix2 c q))
        + rowOf x10 (ix2 0 q) := by
  rw [val_main_v41_apply, val_main_v38_apply, val_main_v40_apply, val_main_v39_apply, rowOf_at]
  refine congrArg₂ (· + ·) (Finset.sum_congr rfl fun c _ => ?_) (congrArg x10 (single_eq _ _ rfl))
  exact congrArg₂ (· * ·) (congrArg (val_main_v37 (F := Ideal) x0 x1 x2 x3 x4 x5 x6 x7 x8) (pair_eq _ _ _ rfl rfl))
    (congrArg x9 (pair_eq _ _ _ rfl rfl))

end Node

/-- The reference's new node features are the node network of the node rows and the per-node sums of the new edge
    features. -/
theorem node_eq (x0 : (⟨S50000x128, .f32⟩ : BufTy).Contents (Elt Ideal)) (x1 : (⟨S800000x64, .f32⟩ : BufTy).Contents (Elt Ideal))
    (x2 : (⟨S2x800000, .i32⟩ : BufTy).Contents (Elt Ideal)) (x3 : (⟨S320x128, .f32⟩ : BufTy).Contents (Elt Ideal))
    (x4 : (⟨S128, .f32⟩ : BufTy).Contents (Elt Ideal)) (x5 : (⟨S128x64, .f32⟩ : BufTy).Contents (Elt Ideal))
    (x6 : (⟨S64, .f32⟩ : BufTy).Contents (Elt Ideal)) (x7 : (⟨S192x128, .f32⟩ : BufTy).Contents (Elt Ideal))
    (x8 : (⟨S128, .f32⟩ : BufTy).Contents (Elt Ideal)) (x9 : (⟨S128x128, .f32⟩ : BufTy).Contents (Elt Ideal))
    (x10 : (⟨S128, .f32⟩ : BufTy).Contents (Elt Ideal)) :
    val_main_v41 (F := Ideal) x0 x1 x2 x3 x4 x5 x6 x7 x8 x9 x10
      = nodeOut x0 (val_main_v31 (F := Ideal) x0 x1 x2 x3 x4 x5 x6) x7 x8 x9 x10 := by
  funext i
  obtain ⟨p, q, rfl⟩ : ∃ (p : Fin 50000) (q : Fin 128), i = ix2 p q := ⟨i 0, i 1, eq_ix2 i⟩
  rw [v41_at]
  simp only [v37_at, v36_at, v33_at]
  rfl

end Cert.ReferenceIdeal.RefValue

end
-- ==== Proof.Bridge.lean ====
/-
  The two programs' host terms, side by side.

  Both programs take the same two rows of the index table, turn a negative node index into one counted from the end, and
  gather node rows with the same dimension numbers; both sum the new edge rows into their receivers with the same
  dimension numbers from the same zero array.  So the reference's gathered arrays and per-node sums are the kernel
  program's, term for term: the two programs name the same operations over the same literal shapes.  (The kernel program
  gathers from the narrowed node rows; at the ideal values narrowing is the identity, which the kernel side has already
  used.)  With that, the reference's two results are the edge network of the gathered rows and the node network of the
  node rows and of the sums of the edge result.
-/
import proofs.«125385_j28217935135269_2_alg».proof.Proof.Operands
import proofs.«125385_j28217935135269_2_alg».proof.Proof.RefValue

set_option maxRecDepth 16384

noncomputable section

namespace Cert.Proof.Bridge

open Cert.KernelIdeal.Operands Cert.MessagePassing Idealize.ShloMosaic Idealize.SL.Sem

/-- The reference's gathered sender rows are the kernel program's. -/
theorem gather_s (x0 : (⟨Cert.ReferenceIdeal.S50000x128, .f32⟩ : BufTy).Contents (Elt Ideal)) (x2 : (⟨Cert.ReferenceIdeal.S2x800000, .i32⟩ : BufTy).Contents (Elt Ideal)) :
    Cert.ReferenceIdeal.Read.val_main_v10 (F := Ideal) x0 x2 = gatherRows x0 (wrapped (senders x2)) := by
  unfold Cert.ReferenceIdeal.Read.val_main_v10 gatherRows
  rfl

/-- The reference's gathered receiver rows are the kernel program's. -/
theorem gather_r (x0 : (⟨Cert.ReferenceIdeal.S50000x128, .f32⟩ : BufTy).Contents (Elt Ideal)) (x2 : (⟨Cert.ReferenceIdeal.S2x800000, .i32⟩ : BufTy).Contents (Elt Ideal)) :
    Cert.ReferenceIdeal.Read.val_main_v17 (F := Ideal) x0 x2 = gatherRows x0 (wrapped (receivers x2)) := by
  unfold Cert.ReferenceIdeal.Read.val_main_v17 gatherRows
  rfl

/-- The reference's per-node sums of any edge rows `u` are the kernel program's. -/
theorem sums (x2 : (⟨Cert.ReferenceIdeal.S2x800000, .i32⟩ : BufTy).Contents (Elt Ideal)) (u : (⟨Cert.ReferenceIdeal.S800000x64, .f32⟩ : BufTy).Contents (Elt Ideal)) :
    Host.scatterAdd (F := Ideal) (φ := .f32) Cert.ReferenceIdeal.scatter_S50000x64_S800000x1_S800000x64_1_0_0_1
      (Cert.ReferenceIdeal.Read.val_main_v29 (F := Ideal)) (Cert.ReferenceIdeal.Read.val_main_v30 (F := Ideal) x2) u
      = sumInto (receivers x2) u := by
  unfold sumInto
  rfl

/-- The reference's edge result in the kernel program's terms. -/
theorem ref_edge (x0 : (⟨Cert.ReferenceIdeal.S50000x128, .f32⟩ : BufTy).Contents (Elt Ideal)) (x1 : (⟨Cert.ReferenceIdeal.S800000x64, .f32⟩ : BufTy).Contents (Elt Ideal)) (x2 : (⟨Cert.ReferenceIdeal.S2x800000, .i32⟩ : BufTy).Contents (Elt Ideal)) (x3 : (⟨Cert.ReferenceIdeal.S320x128, .f32⟩ : BufTy).Contents (Elt Ideal)) (x4 : (⟨Cert.ReferenceIdeal.S128, .f32⟩ : BufTy).Contents (Elt Ideal)) (x5 : (⟨Cert.ReferenceIdeal.S128x64, .f32⟩ : BufTy).Contents (Elt Ideal)) (x6 : (⟨Cert.ReferenceIdeal.S64, .f32⟩ : BufTy).Contents (Elt Ideal)) :
    Cert.ReferenceIdeal.Read.val_main_v28 (F := Ideal) x0 x1 x2 x3 x4 x5 x6 = edgeOut (gatherRows x0 (wrapped (senders x2))) (gatherRows x0 (wrapped (receivers x2))) x1 x3 x4 x5 x6 := by
  rw [Cert.ReferenceIdeal.RefValue.edge_eq, gather_s, gather_r]

/-- The reference's per-node sums in the kernel program's terms. -/
theorem ref_sums (x0 : (⟨Cert.ReferenceIdeal.S50000x128, .f32⟩ : BufTy).Contents (Elt Ideal)) (x1 : (⟨Cert.ReferenceIdeal.S800000x64, .f32⟩ : BufTy).Contents (Elt Ideal)) (x2 : (⟨Cert.ReferenceIdeal.S2x800000, .i32⟩ : BufTy).Contents (Elt Ideal)) (x3 : (⟨Cert.ReferenceIdeal.S320x128, .f32⟩ : BufTy).Contents (Elt Ideal)) (x4 : (⟨Cert.ReferenceIdeal.S128, .f32⟩ : BufTy).Contents (Elt Ideal)) (x5 : (⟨Cert.ReferenceIdeal.S128x64, .f32⟩ : BufTy).Contents (Elt Ideal)) (x6 : (⟨Cert.ReferenceIdeal.S64, .f32⟩ : BufTy).Contents (Elt Ideal)) :
    Cert.ReferenceIdeal.Read.val_main_v31 (F := Ideal) x0 x1 x2 x3 x4 x5 x6
      = sumInto (receivers x2) (edgeOut (gatherRows x0 (wrapped (senders x2))) (gatherRows x0 (wrapped (receivers x2))) x1 x3 x4 x5 x6) := by
  unfold Cert.ReferenceIdeal.Read.val_main_v31
  rw [ref_edge]
  exact sums x2 _

/-- The reference's node result in the kernel program's terms. -/
theorem ref_node (x0 : (⟨Cert.ReferenceIdeal.S50000x128, .f32⟩ : BufTy).Contents (Elt Ideal)) (x1 : (⟨Cert.ReferenceIdeal.S800000x64, .f32⟩ : BufTy).Contents (Elt Ideal)) (x2 : (⟨Cert.ReferenceIdeal.S2x800000, .i32⟩ : BufTy).Contents (Elt Ideal)) (x3 : (⟨Cert.ReferenceIdeal.S320x128, .f32⟩ : BufTy).Contents (Elt Ideal)) (x4 : (⟨Cert.ReferenceIdeal.S128, .f32⟩ : BufTy).Contents (Elt Ideal)) (x5 : (⟨Cert.ReferenceIdeal.S128x64, .f32⟩ : BufTy).Contents (Elt Ideal)) (x6 : (⟨Cert.ReferenceIdeal.S64, .f32⟩ : BufTy).Contents (Elt Ideal)) (x7 : (⟨Cert.ReferenceIdeal.S192x128, .f32⟩ : BufTy).Contents (Elt Ideal)) (x8 : (⟨Cert.ReferenceIdeal.S128, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) :
    Cert.ReferenceIdeal.Read.val_main_v41 (F := Ideal) x0 x1 x2 x3 x4 x5 x6 x7 x8 x9 x10 = nodeOut x0 (sumInto (receivers x2) (edgeOut (gatherRows x0 (wrapped (senders x2))) (gatherRows x0 (wrapped (receivers x2))) x1 x3 x4 x5 x6)) x7 x8 x9 x10 := by
  rw [Cert.ReferenceIdeal.RefValue.node_eq, ref_sums]

end Cert.Proof.Bridge

end
-- ==== Proof.lean ====
/-
  One message-passing layer of a graph network, a kernel program against its array-level reference, on the extended
  reals.

  Both programs compute, for 800000 edges over 50000 nodes,
    edge result e  =  silu (silu ([x_s(e) | x_r(e) | x_e] · W1 + b1) · W2 + b2),
    node result n  =  silu ([x_n | Σ_{e : r(e) = n} edge result e] · W1' + b1') · W2' + b2',
  with silu x = x · 1/(1 + e⁻ˣ).  The reference joins the feature rows and multiplies the joined row by the whole weight
  matrix; the kernel program never forms the joined row: it multiplies each part by the band of rows of the weight matrix
  that faces it and adds the products, 8000 edges (5000 nodes) at a time, in a narrower float format.  At the ideal
  values a format change is the identity, the kernel's logistic is 1/(1 + e⁻ˣ), and a sum over the joined columns is the
  sum of the sums over the parts — a regrouping of a finite sum, valid on the extended reals as it stands, so the
  precondition (finite inputs) is never opened.  The gathers of node rows and the per-node sums are the same host
  operations in both programs and are never opened either.

  The frames are the generated ones (the reference's is its generated run with the results dropped); the kernel
  program's idealization rewrote nothing, so `preserves` is trivial; `algebraic` takes the kernel program's run with its
  two result buffers named, reads them as the two networks of the arguments, and reads the reference's generated run to
  the same two terms.
-/
import proofs.«125385_j28217935135269_2_alg».proof.Defs
import proofs.«125385_j28217935135269_2_alg».proof.Proof.Gen.Kernel
import proofs.«125385_j28217935135269_2_alg».proof.Proof.Gen.Kernel.Frame
import proofs.«125385_j28217935135269_2_alg».proof.Proof.Gen.KernelIdeal
import proofs.«125385_j28217935135269_2_alg».proof.Proof.Gen.KernelIdeal.Frame
import proofs.«125385_j28217935135269_2_alg».proof.Proof.Gen.ReferenceIdeal
import proofs.«125385_j28217935135269_2_alg».proof.Proof.Gen.Pre_finite_inputs
import proofs.«125385_j28217935135269_2_alg».proof.Proof.Gen.ReferenceIdeal.Read
import proofs.«125385_j28217935135269_2_alg».proof.Proof.RunNamed
import proofs.«125385_j28217935135269_2_alg».proof.Proof.KernelResults
import proofs.«125385_j28217935135269_2_alg».proof.Proof.Bridge
import Idealize.ShloMosaic.Adequacy
import Idealize.ShloMosaic.Init

set_option maxRecDepth 16384

noncomputable section

namespace Cert.Proof

open Idealize.ShloMosaic Idealize.SL.Sem
open Cert.KernelIdeal.Operands Cert.MessagePassing

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the node network of the node rows and of the per-node sums of the edge result, and with
    the edge result: the edge network of the gathered rows. -/
theorem algebraic : Cert.algebraic_KernelIdeal_ReferenceIdeal := by
  intro m ρ m' ρ' _ hagree
  refine ⟨fun c => nodeOut (m ((c.tc : Thread Cert.KernelIdeal.nD Cert.KernelIdeal.τ).loc Cert.KernelIdeal.main_arg0)) (sumInto (receivers (m ((c.tc : Thread Cert.KernelIdeal.nD Cert.KernelIdeal.τ).loc Cert.KernelIdeal.main_arg2))) (edgeOut (gatherRows (m ((c.tc : Thread Cert.KernelIdeal.nD Cert.KernelIdeal.τ).loc Cert.KernelIdeal.main_arg0)) (wrapped (senders (m ((c.tc : Thread Cert.KernelIdeal.nD Cert.KernelIdeal.τ).loc Cert.KernelIdeal.main_arg2))))) (gatherRows (m ((c.tc : Thread Cert.KernelIdeal.nD Cert.KernelIdeal.τ).loc Cert.KernelIdeal.main_arg0)) (wrapped (receivers (m ((c.tc : Thread Cert.KernelIdeal.nD Cert.KernelIdeal.τ).loc Cert.KernelIdeal.main_arg2))))) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => edgeOut (gatherRows (m ((c.tc : Thread Cert.KernelIdeal.nD Cert.KernelIdeal.τ).loc Cert.KernelIdeal.main_arg0)) (wrapped (senders (m ((c.tc : Thread Cert.KernelIdeal.nD Cert.KernelIdeal.τ).loc Cert.KernelIdeal.main_arg2))))) (gatherRows (m ((c.tc : Thread Cert.KernelIdeal.nD Cert.KernelIdeal.τ).loc Cert.KernelIdeal.main_arg0)) (wrapped (receivers (m ((c.tc : Thread Cert.KernelIdeal.nD Cert.KernelIdeal.τ).loc Cert.KernelIdeal.main_arg2))))) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Results.node_result m ρ c),
        (h c).2.1.trans (Cert.KernelIdeal.Results.edge_result m ρ c), (h c).2.2⟩)
      (Cert.KernelIdeal.Outputs.run_named (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨a0, a1, a2, a3, a4, a5, a6, a7, a8, a9, a10⟩ := hagree c
      rw [Cert.ReferenceIdeal.Read.val_main_v41_eq, a0, a1, a2, a3, a4, a5, a6, a7, a8, a9, a10]
      exact Cert.Proof.Bridge.ref_node _ _ _ _ _ _ _ _ _ _ _
    · obtain ⟨a0, a1, a2, a3, a4, a5, a6, a7, a8, a9, a10⟩ := hagree c
      rw [Cert.ReferenceIdeal.Read.val_main_v28_eq, a0, a1, a2, a3, a4, a5, a6]
      exact Cert.Proof.Bridge.ref_edge _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
